-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.truncf_extf.Statement Cert.KernelIdeal.S256x512 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S1024x1024 .f32) (main_arg15 : FVec F S1024 .f32) (main_arg16 : FVec F S1024x1 .f32) (main_arg17 : FVec F S1 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1 .f32 := Host.absf main_arg16
  let main_cst_30 : FVec F S_ .f32 := constant S_ .f32 0x7F800000#32
  let main_v80 : FVec F S1024x1 .f32 := broadcastInDim S1024x1 ![] bcast_S_S1024x1 main_cst_30
  let main_v81 : IVec S1024x1 1 := cmpf .olt main_v79 main_v80
  let main_c_31 : IVec S_ 1 := constantI S_ 1 1#1
  let main_v82 : IVec S_ 1 := (fun x v => Host.reduce IntOp.andi x v reducesTo_S1024x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S512x1024 .f32) (main_arg13 : FVec F S1024x1024 .f32) (main_arg14 : FVec F S1024x1024 .f32) (main_arg15 : FVec F S1024 .f32) (main_arg16 : FVec F S1024x1 .f32) (main_arg17 : FVec F S1 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024 .f32) (main_arg9 : FVec F S512x1024 .f32) (main_arg10 : FVec F S1024x1024 .f32) (main_arg11 : FVec F S1024 .f32) (main_arg12 : FVec F S512x1024 .f32) (main_arg13 : FVec F S1024x1024 .f32) (main_arg14 : FVec F S1024x1024 .f32) (main_arg15 : FVec F S1024 .f32) (main_arg16 : FVec F S1024x1 .f32) (main_arg17 : FVec F S1 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S512x1024 .f32) (main_arg7 : FVec F S1024x1024 .f32) (main_arg8 : FVec F S1024 .f32) (main_arg9 : FVec F S512x1024 .f32) (main_arg10 : FVec F S1024x1024 .f32) (main_arg11 : FVec F S1024 .f32) (main_arg12 : FVec F S512x1024 .f32) (main_arg13 : FVec F S1024x1024 .f32) (main_arg14 : FVec F S1024x1024 .f32) (main_arg15 : FVec F S1024 .f32) (main_arg16 : FVec F S1024x1 .f32) (main_arg17 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x512 .f32) (main_arg1 : FVec F S16384x1024 .f32) (main_arg2 : FVec F S16384x1024 .f32) (main_arg3 : FVec F S512x1024 .f32) (main_arg4 : FVec F S1024x1024 .f32) (main_arg5 : FVec F S1024 .f32) (main_arg6 : FVec F S512x1024 .f32) (main_arg7 : FVec F S1024x1024 .f32) (main_arg8 : FVec F S1024 .f32) (main_arg9 : FVec F S512x1024 .f32) (main_arg10 : FVec F S1024x1024 .f32) (main_arg11 : FVec F S1024 .f32) (main_arg12 : FVec F S512x1024 .f32) (main_arg13 : FVec F S1024x1024 .f32) (main_arg14 : FVec F S1024x1024 .f32) (main_arg15 : FVec F S1024 .f32) (main_arg16 : FVec F S1024x1 .f32) (main_arg17 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S512x4096 : Shape := ⟨2, ![512, 4096]⟩
abbrev S1024x4096 : Shape := ⟨2, ![1024, 4096]⟩
abbrev S4096 : Shape := ⟨1, ![4096]⟩
abbrev S1x4096 : Shape := ⟨2, ![1, 4096]⟩
abbrev S1x1 : Shape := ⟨2, ![1, 1]⟩
abbrev S16384x1 : Shape := ⟨2, ![16384, 1]⟩
abbrev S256x512 : Shape := ⟨2, ![256, 512]⟩
abbrev S256x1024 : Shape := ⟨2, ![256, 1024]⟩
abbrev S256x1 : Shape := ⟨2, ![256, 1]⟩
abbrev S256x4096 : Shape := ⟨2, ![256, 4096]⟩

abbrev nBuf : Space → Nat
  | .hbm => 42
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S512x1024, .f32⟩
  | .hbm, ⟨4, _⟩ => ⟨S1024x1024, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S1024, .f32⟩
  | .hbm, ⟨16, _⟩ => ⟨S1024x1, .f32⟩
  | .hbm, ⟨17, _⟩ => ⟨S1, .f32⟩
  | .hbm, ⟨18, _⟩ => ⟨S512x4096, .f32⟩
  | .hbm, ⟨19, _⟩ => ⟨S1024x4096, .f32⟩
  | .hbm, ⟨20, _⟩ => ⟨S4096, .f32⟩
  | .hbm, ⟨21, _⟩ => ⟨S1x4096, .f32⟩
  | .hbm, ⟨22, _⟩ => ⟨S512x4096, .bf16⟩
  | .hbm, ⟨23, _⟩ => ⟨S512x4096, .f32⟩
  | .hbm, ⟨24, _⟩ => ⟨S512x4096, .f32⟩
  | .hbm, ⟨25, _⟩ => ⟨S512x4096, .bf16⟩
  | .hbm, ⟨26, _⟩ => ⟨S1024x4096, .bf16⟩
  | .hbm, ⟨27, _⟩ => ⟨S1024x4096, .f32⟩
  | .hbm, ⟨28, _⟩ => ⟨S1024x4096, .f32⟩
  | .hbm, ⟨29, _⟩ => ⟨S1024x4096, .bf16⟩
  | .hbm, ⟨30, _⟩ => ⟨S1024x1024, .bf16⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S1024x1, .bf16⟩
  | .hbm, ⟨35, _⟩ => ⟨S1024x1, .f32⟩
  | .hbm, ⟨36, _⟩ => ⟨S1024x1, .f32⟩
  | .hbm, ⟨37, _⟩ => ⟨S1024x1, .bf16⟩
  | .hbm, ⟨38, _⟩ => ⟨S1x1, .f32⟩
  | .hbm, ⟨39, _⟩ => ⟨S16384x1, .f32⟩
  | .hbm, ⟨40, _⟩ => ⟨S16384x1024, .f32⟩
  | .hbm, ⟨41, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1x4096, .f32⟩
  | .local _ .vmem, ⟨11, _⟩ => ⟨S1024x1024, .bf16⟩
  | .local _ .vmem, ⟨12, _⟩ => ⟨S1024x1024, .bf16⟩
  | .local _ .vmem, ⟨13, _⟩ => ⟨S1024x1, .bf16⟩
  | .local _ .vmem, ⟨14, _⟩ => ⟨S1024x1, .bf16⟩
  | .local _ .vmem, ⟨15, _⟩ => ⟨S1x1, .f32⟩
  | .local _ .vmem, ⟨16, _⟩ => ⟨S256x1, .f32⟩
  | .local _ .vmem, ⟨17, _⟩ => ⟨S256x1, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  concatenates_S512x1024_S512x1024_S512x1024_S512x1024_S512x4096_d1 : Shape.Concatenates [S512x1024, S512x1024, S512x1024, S512x1024] S512x4096 1
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  shapeCasts_S4096_S1x4096 : S4096.ShapeCasts S1x4096
  bitsLt_bf16_f32 : FTy.bits .bf16 < FTy.bits .f32
  shapeCasts_S1_S1x1 : S1.ShapeCasts S1x1
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  dot_S256x1024_S1024x1024_S256x1024_1_0_0_1_n_n_wf : DotDims.WF S256x1024 S1024x1024 S256x1024 [1] [0] [0] [1] [] []
  dot_S256x1024_S1024x1_S256x1_1_0_0_1_n_n_wf : DotDims.WF S256x1024 S1024x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S512x4096.size a
  hwx0_4 : ∀ i : grid0.Coords, EltTy.bits .bf16 = 32 ∨ (Rect.block (s := S512x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S1024x1.size a
  hwx0_10 : ∀ i : grid0.Coords, EltTy.bits .bf16 = 32 ∨ (Rect.block (s := S1024x1) S1024x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S1024x1.size a
  hwx0_11 : ∀ i : grid0.Coords, EltTy.bits .bf16 = 32 ∨ (Rect.block (s := S1024x1) S1024x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S16384x1.size a
  hwx0_13 : ∀ i : grid0.Coords, EltTy.bits .f32 = 32 ∨ (Rect.block (s := S16384x1) S256x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S16384x1024.size a
  hwx0_14 : ∀ i : grid0.Coords, EltTy.bits .f32 = 32 ∨ (Rect.block (s := S16384x1024) S256x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S16384x1024.size a
  hwx0_15 : ∀ i : grid0.Coords, EltTy.bits .f32 = 32 ∨ (Rect.block (s := S16384x1024) S256x1024.size (cc0_transform_15 i) (hinb0_15 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x1_S256x1_1_0_0_1_n_n : DotDims S256x1024 S1024x1 S256x1 where
  lhsContracting := [1]
  rhsContracting := [0]
  lhsNonContracting := [0]
  rhsNonContracting := [1]
  lhsBatch := []
  rhsBatch := []
  wf := dot_S256x1024_S1024x1_S256x1_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1024x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1024x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21_0) S256x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v21_1) S256x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v21_2) S256x1024.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S512x4096 : Shape := ⟨2, ![512, 4096]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩
abbrev S16384x1 : Shape := ⟨2, ![16384, 1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S512x1024, .f32⟩
  | .hbm, ⟨4, _⟩ => ⟨S1024x1024, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S1024, .f32⟩
  | .hbm, ⟨16, _⟩ => ⟨S1024x1, .f32⟩
  | .hbm, ⟨17, _⟩ => ⟨S1, .f32⟩
  | .hbm, ⟨18, _⟩ => ⟨S512x4096, .f32⟩
  | .hbm, ⟨19, _⟩ => ⟨S1024x4096, .f32⟩
  | .hbm, ⟨20, _⟩ => ⟨S4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1, .f32⟩
  | .hbm, ⟨71, _⟩ => ⟨S1x1, .f32⟩
  | .hbm, ⟨72, _⟩ => ⟨S16384x1, .f32⟩
  | .hbm, ⟨73, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  concatenates_S512x1024_S512x1024_S512x1024_S512x1024_S512x4096_d1 : Shape.Concatenates [S512x1024, S512x1024, S512x1024, S512x1024] S512x4096 1
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x512_S512x4096_S16384x4096_1_0_0_1_n_n_wf : DotDims.WF S16384x512 S512x4096 S16384x4096 [1] [0] [0] [1] [] []
  dot_S16384x1024_S1024x4096_S16384x4096_1_0_0_1_n_n_wf : DotDims.WF S16384x1024 S1024x4096 S16384x4096 [1] [0] [0] [1] [] []
  dot_S16384x1024_S1024x1024_S16384x1024_1_0_0_1_n_n_wf : DotDims.WF S16384x1024 S1024x1024 S16384x1024 [1] [0] [0] [1] [] []
  dot_S16384x1024_S1024x1_S16384x1_1_0_0_1_n_n_wf : DotDims.WF S16384x1024 S1024x1 S16384x1 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.KData.lean ====
/- The proof data of the one pipeline of @main: what the region finds in each array, each window's block at a
   point of the grid, and what the body leaves in each window's staging buffer. Definitions and their projections
   only; the theorems about them are in the frame module. -/
import proofs.«176781_j17205638987779_2_alg».proof.Proof.Gen.Kernel.Launch
import proofs.«176781_j17205638987779_2_alg».proof.Proof.Gen.Kernel.Skeleton
import proofs.«176781_j17205638987779_2_alg».proof.Proof.Gen.Kernel.Points
import Idealize.ShloMosaic.Lib.Pipeline.FrameBody
import Idealize.ShloMosaic.Lib.Ring
import Idealize.ShloMosaic.Lib.Tactic

-- membership in a rectangle of large extents is checked by evaluation, which recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: what the 21 host operations before it leave of the
    launched memory. -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every staging buffer through its whole rectangle -/

abbrev rA : Rect S256x512 := Rect.unit (s := S256x512) ![0, 0] S256x512.size inb_S256x512_S256x512_0_0
abbrev rB : Rect S256x1024 := Rect.unit (s := S256x1024) ![0, 0] S256x1024.size inb_S256x1024_S256x1024_0_0
abbrev rC : Rect S512x4096 := Rect.unit (s := S512x4096) ![0, 0] S512x4096.size inb_S512x4096_S512x4096_0_0
abbrev rD : Rect S1024x4096 := Rect.unit (s := S1024x4096) ![0, 0] S1024x4096.size inb_S1024x4096_S1024x4096_0_0
abbrev rE : Rect S1x4096 := Rect.unit (s := S1x4096) ![0, 0] S1x4096.size inb_S1x4096_S1x4096_0_0
abbrev rF : Rect S1024x1024 := Rect.unit (s := S1024x1024) ![0, 0] S1024x1024.size inb_S1024x1024_S1024x1024_0_0
abbrev rG : Rect S1024x1 := Rect.unit (s := S1024x1) ![0, 0] S1024x1.size inb_S1024x1_S1024x1_0_0
abbrev rH : Rect S1x1 := Rect.unit (s := S1x1) ![0, 0] S1x1.size inb_S1x1_S1x1_0_0
abbrev rI : Rect S256x1 := Rect.unit (s := S256x1) ![0, 0] S256x1.size inb_S256x1_S256x1_0_0

/-! ## What the body leaves in each output window's buffer -/

/-- Window 13's staging buffer after the body, from the thirteen input blocks: its one store, through the whole
    rectangle, of the last payload over the values loaded from the inputs. -/
def out0_13 (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) : Vec F S256x1 .f32 :=
  View.canon [⟨rI, k0_pay8 (View.ld x2 rB) (k0_pay1 (View.ld x2 rB)) (k0_pay2 (View.ld x2 rB)) (k0_pay3 (View.ld x0 rA) (View.ld x1 rB) (View.ld x3 rC) (View.ld x4 rC) (View.ld x5 rD) (View.ld x6 rD)) (k0_pay4 (View.ld x7 rE)) (View.ld x8 rF) (View.ld x9 rF) (View.ld x10 rG) (View.ld x11 rG) (View.ld x12 rH)⟩]

/-- Window 14's staging buffer after the body: its one store, through the whole rectangle. -/
def out0_14 (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) : Vec F S256x1024 .f32 :=
  View.canon [⟨rB, k0_pay7 (View.ld x2 rB) (k0_pay1 (View.ld x2 rB)) (k0_pay2 (View.ld x2 rB)) (k0_pay3 (View.ld x0 rA) (View.ld x1 rB) (View.ld x3 rC) (View.ld x4 rC) (View.ld x5 rD) (View.ld x6 rD)) (k0_pay4 (View.ld x7 rE)) (View.ld x8 rF) (View.ld x9 rF)⟩]

/-- Window 15's staging buffer after the body: its one store, through the whole rectangle. -/
def out0_15 (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) : Vec F S256x1024 .f32 :=
  View.canon [⟨rB, k0_pay6 (View.ld x2 rB) (k0_pay3 (View.ld x0 rA) (View.ld x1 rB) (View.ld x3 rC) (View.ld x4 rC) (View.ld x5 rD) (View.ld x6 rD)) (k0_pay4 (View.ld x7 rE))⟩]

/-! ## The pipeline's proof data -/

/-- The proof data of the one pipeline on core `c`: the arrays as the region finds them (`V`); after the body at
    point `t` each input's buffer at its block and each output's at `out0_W` of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q _ := fullShare
  owed _ := 0

/-- The proof data's arrays are the region-entry contents: the definition projected, so that `V`, a fold over
    the host operations, is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

end Cert.Kernel.Hand

end
-- ==== Proof.KFrame.lean ====
/- The frame of @main: it runs — terminates without fault — and every argument array ends as launched. The host
   operations before the region write their own results only; the region stages three argument arrays as inputs,
   which no transfer writes, and writes three fresh results; the body reads every staging buffer whole and stores
   each output buffer whole, once. -/
import proofs.«176781_j17205638987779_2_alg».proof.Proof.KData

-- membership in a rectangle of large extents is checked by evaluation, which recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates. -/
theorem hostOps0_fresh : (hostOps0 : List (HloOp τ sig (Elt F))).Forall fun op => op.fresh = ∅ := by
  simp only [List.Forall]; repeat' constructor

/-- @main up to the region, at any variants `𝒱₀`: one stretch of host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0` (each writes its own result, one of `main_v0` … `main_v20`): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1` (each writes its own result, one of `main_v0` … `main_v20`): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2` (each writes its own result, one of `main_v0` … `main_v20`): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3` (each writes its own result, one of `main_v0` … `main_v20`): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4` (each writes its own result, one of `main_v0` … `main_v20`): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5` (each writes its own result, one of `main_v0` … `main_v20`): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6` (each writes its own result, one of `main_v0` … `main_v20`): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7` (each writes its own result, one of `main_v0` … `main_v20`): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8` (each writes its own result, one of `main_v0` … `main_v20`): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9` (each writes its own result, one of `main_v0` … `main_v20`): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10` (each writes its own result, one of `main_v0` … `main_v20`): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11` (each writes its own result, one of `main_v0` … `main_v20`): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12` (each writes its own result, one of `main_v0` … `main_v20`): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13` (each writes its own result, one of `main_v0` … `main_v20`): the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14` (each writes its own result, one of `main_v0` … `main_v20`): the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15` (each writes its own result, one of `main_v0` … `main_v20`): the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16` (each writes its own result, one of `main_v0` … `main_v20`): the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17` (each writes its own result, one of `main_v0` … `main_v20`): the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The input windows' buffers at a point -/

/-- Input window 0's current staging buffer holds its block at every point, fetched there or not, for any proof
    data whose array is `V`'s (`hA`) and whose body leaves the block in place (`hafter`): unfetched, the block
    index has not moved, the window being uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block
    index has not moved, the window being uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block
    index has not moved, the window being uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block
    index has not moved, the window being uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block
    index has not moved, the window being uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): unfetched, the block
    index has not moved, the window being uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): unfetched, the block
    index has not moved, the window being uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): unfetched, the block
    index has not moved, the window being uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): unfetched, the block
    index has not moved, the window being uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`): unfetched, the block
    index has not moved, the window being uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`): unfetched, the block
    index has not moved, the window being uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`): unfetched, the block
    index has not moved, the window being uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`): unfetched, the block
    index has not moved, the window being uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents (`hA`), a run ending with every array of the
    pipeline at what the proof data computes and every other unscoped buffer as the region found it ends with the
    argument arrays as launched: `main_arg0`, `main_arg1`, `main_arg2` are staged inputs, which end as the region
    found them; the other fifteen no window stages; and no host operation writes an argument (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The stores cover the output buffers -/

/-- Window 13's one store is through the whole rectangle, so it covers the buffer (checked by evaluation). -/
theorem cover0_13 (p0 : Vec F S256x1 .f32) (y : S256x1.Idx) :
    ∃ pc ∈ ([⟨rI, p0⟩] : List (View.Piece (Elt F) S256x1 .f32)), y ∈ pc.1.set :=
  View.cover_of_tiled [⟨rI, p0⟩] S256x1.size (by rfl) y
/-- Window 14's one store covers the buffer. -/
theorem cover0_14 (p0 : Vec F S256x1024 .f32) (y : S256x1024.Idx) :
    ∃ pc ∈ ([⟨rB, p0⟩] : List (View.Piece (Elt F) S256x1024 .f32)), y ∈ pc.1.set :=
  View.cover_of_tiled [⟨rB, p0⟩] S256x1024.size (by rfl) y
/-- Window 15's one store covers the buffer. -/
theorem cover0_15 (p0 : Vec F S256x1024 .f32) (y : S256x1024.Idx) :
    ∃ pc ∈ ([⟨rB, p0⟩] : List (View.Piece (Elt F) S256x1024 .f32)), y ∈ pc.1.set :=
  View.cover_of_tiled [⟨rB, p0⟩] S256x1024.size (by rfl) y

/-! ## The body's triple -/

set_option maxHeartbeats 1000000 in
/-- The kernel body on whole staging memrefs, the inputs' at contents `xW` and the outputs' at anything, runs to
    the continuation holding the inputs' as they were and each output's at `out0_W` of the inputs': it loads every
    memref whole (the outputs' loads are dead) and stores each output whole once, the stored values being the
    payloads over the loaded ones. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S512x4096 .bf16) (harg4 : arg4.IsWhole) (arg5 : Memref sig .tc .vmem S512x4096 .bf16) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1 .bf16) (harg11 : arg11.IsWhole) (arg12 : Memref sig .tc .vmem S1024x1 .bf16) (harg12 : arg12.IsWhole) (arg13 : Memref sig .tc .vmem S1x1 .f32) (harg13 : arg13.IsWhole) (arg14 : Memref sig .tc .vmem S256x1 .f32) (harg14 : arg14.IsWhole) (arg15 : Memref sig .tc .vmem S256x1024 .f32) (harg15 : arg15.IsWhole) (arg16 : Memref sig .tc .vmem S256x1024 .f32) (harg16 : arg16.IsWhole)
    (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__lstm_kernel_eq_skeleton]; unfold cc0__lstm_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  isplitl [H14]
  · iexists _; isplitr
    swap; · iexact H14
    ipureintro
    try dsimp only
    exact View.read_writes_eq_canon _ _ _ (cover0_14 _)
  iexists _; isplitr
  swap; · iexact H15
  ipureintro
  try dsimp only
  exact View.read_writes_eq_canon _ _ _ (cover0_15 _)

/-! ## The input windows' buffers under the proof data -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`: the invariant, what the core owes, and every window's current
    staging buffer whole, at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: the same with every buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the inputs' memrefs hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the library's run theorem are found by unifying its conclusion with this one, which
-- takes unfolding plain definitions in a metavariable's type
set_option backward.isDefEq.respectTransparency.types false in
/-- At the compiled mesh, for any values, from any memory with zero counters: every weakly fair execution of @main
    on the TensorCores terminates, and every final state has every array of the pipeline at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any float model: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.KIData.lean ====
/- The proof data of the one pipeline of @main: what the region finds in each array, each window's block at a
   point of the grid, and what the body leaves in each window's staging buffer. Definitions and their projections
   only; the theorems about them are in the frame module. -/
import proofs.«176781_j17205638987779_2_alg».proof.Proof.Gen.KernelIdeal.Launch
import proofs.«176781_j17205638987779_2_alg».proof.Proof.Gen.KernelIdeal.Skeleton
import proofs.«176781_j17205638987779_2_alg».proof.Proof.Gen.KernelIdeal.Points
import Idealize.ShloMosaic.Lib.Pipeline.FrameBody
import Idealize.ShloMosaic.Lib.Ring
import Idealize.ShloMosaic.Lib.Tactic

-- membership in a rectangle of large extents is checked by evaluation, which recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: what the 21 host operations before it leave of the
    launched memory. -/
abbrev V (c : Dev nD) (b : Ref sig .tc) : Buf (Elt F) ((c : Thread nD τ).loc b) :=
  StableHlo.after hostOps0 (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every staging buffer through its whole rectangle -/

abbrev rA : Rect S256x512 := Rect.unit (s := S256x512) ![0, 0] S256x512.size inb_S256x512_S256x512_0_0
abbrev rB : Rect S256x1024 := Rect.unit (s := S256x1024) ![0, 0] S256x1024.size inb_S256x1024_S256x1024_0_0
abbrev rC : Rect S512x4096 := Rect.unit (s := S512x4096) ![0, 0] S512x4096.size inb_S512x4096_S512x4096_0_0
abbrev rD : Rect S1024x4096 := Rect.unit (s := S1024x4096) ![0, 0] S1024x4096.size inb_S1024x4096_S1024x4096_0_0
abbrev rE : Rect S1x4096 := Rect.unit (s := S1x4096) ![0, 0] S1x4096.size inb_S1x4096_S1x4096_0_0
abbrev rF : Rect S1024x1024 := Rect.unit (s := S1024x1024) ![0, 0] S1024x1024.size inb_S1024x1024_S1024x1024_0_0
abbrev rG : Rect S1024x1 := Rect.unit (s := S1024x1) ![0, 0] S1024x1.size inb_S1024x1_S1024x1_0_0
abbrev rH : Rect S1x1 := Rect.unit (s := S1x1) ![0, 0] S1x1.size inb_S1x1_S1x1_0_0
abbrev rI : Rect S256x1 := Rect.unit (s := S256x1) ![0, 0] S256x1.size inb_S256x1_S256x1_0_0

/-! ## What the body leaves in each output window's buffer -/

/-- Window 13's staging buffer after the body, from the thirteen input blocks: its one store, through the whole
    rectangle, of the last payload over the values loaded from the inputs. -/
def out0_13 (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) : Vec F S256x1 .f32 :=
  View.canon [⟨rI, k0_pay8 (View.ld x2 rB) (k0_pay1 (View.ld x2 rB)) (k0_pay2 (View.ld x2 rB)) (k0_pay3 (View.ld x0 rA) (View.ld x1 rB) (View.ld x3 rC) (View.ld x4 rC) (View.ld x5 rD) (View.ld x6 rD)) (k0_pay4 (View.ld x7 rE)) (View.ld x8 rF) (View.ld x9 rF) (View.ld x10 rG) (View.ld x11 rG) (View.ld x12 rH)⟩]

/-- Window 14's staging buffer after the body: its one store, through the whole rectangle. -/
def out0_14 (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) : Vec F S256x1024 .f32 :=
  View.canon [⟨rB, k0_pay7 (View.ld x2 rB) (k0_pay1 (View.ld x2 rB)) (k0_pay2 (View.ld x2 rB)) (k0_pay3 (View.ld x0 rA) (View.ld x1 rB) (View.ld x3 rC) (View.ld x4 rC) (View.ld x5 rD) (View.ld x6 rD)) (k0_pay4 (View.ld x7 rE)) (View.ld x8 rF) (View.ld x9 rF)⟩]

/-- Window 15's staging buffer after the body: its one store, through the whole rectangle. -/
def out0_15 (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) : Vec F S256x1024 .f32 :=
  View.canon [⟨rB, k0_pay6 (View.ld x2 rB) (k0_pay3 (View.ld x0 rA) (View.ld x1 rB) (View.ld x3 rC) (View.ld x4 rC) (View.ld x5 rD) (View.ld x6 rD)) (k0_pay4 (View.ld x7 rE))⟩]

/-! ## The pipeline's proof data -/

/-- The proof data of the one pipeline on core `c`: the arrays as the region finds them (`V`); after the body at
    point `t` each input's buffer at its block and each output's at `out0_W` of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q _ := fullShare
  owed _ := 0

/-- The proof data's arrays are the region-entry contents: the definition projected, so that `V`, a fold over
    the host operations, is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

end Cert.KernelIdeal.Hand

end
-- ==== Proof.KIFrame.lean ====
/- The frame of @main: it runs — terminates without fault — and every argument array ends as launched. The host
   operations before the region write their own results only; the region stages three argument arrays as inputs,
   which no transfer writes, and writes three fresh results; the body reads every staging buffer whole and stores
   each output buffer whole, once. -/
import proofs.«176781_j17205638987779_2_alg».proof.Proof.KIData

-- membership in a rectangle of large extents is checked by evaluation, which recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates. -/
theorem hostOps0_fresh : (hostOps0 : List (HloOp τ sig (Elt F))).Forall fun op => op.fresh = ∅ := by
  simp only [List.Forall]; repeat' constructor

/-- @main up to the region, at any variants `𝒱₀`: one stretch of host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0` (each writes its own result, one of `main_v0` … `main_v20`): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1` (each writes its own result, one of `main_v0` … `main_v20`): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2` (each writes its own result, one of `main_v0` … `main_v20`): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3` (each writes its own result, one of `main_v0` … `main_v20`): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4` (each writes its own result, one of `main_v0` … `main_v20`): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5` (each writes its own result, one of `main_v0` … `main_v20`): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6` (each writes its own result, one of `main_v0` … `main_v20`): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7` (each writes its own result, one of `main_v0` … `main_v20`): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8` (each writes its own result, one of `main_v0` … `main_v20`): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9` (each writes its own result, one of `main_v0` … `main_v20`): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10` (each writes its own result, one of `main_v0` … `main_v20`): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11` (each writes its own result, one of `main_v0` … `main_v20`): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12` (each writes its own result, one of `main_v0` … `main_v20`): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg13` (each writes its own result, one of `main_v0` … `main_v20`): the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg14` (each writes its own result, one of `main_v0` … `main_v20`): the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg15` (each writes its own result, one of `main_v0` … `main_v20`): the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg16` (each writes its own result, one of `main_v0` … `main_v20`): the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg17` (each writes its own result, one of `main_v0` … `main_v20`): the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The input windows' buffers at a point -/

/-- Input window 0's current staging buffer holds its block at every point, fetched there or not, for any proof
    data whose array is `V`'s (`hA`) and whose body leaves the block in place (`hafter`): unfetched, the block
    index has not moved, the window being uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block
    index has not moved, the window being uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block
    index has not moved, the window being uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block
    index has not moved, the window being uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block
    index has not moved, the window being uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): unfetched, the block
    index has not moved, the window being uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): unfetched, the block
    index has not moved, the window being uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): unfetched, the block
    index has not moved, the window being uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): unfetched, the block
    index has not moved, the window being uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`): unfetched, the block
    index has not moved, the window being uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`): unfetched, the block
    index has not moved, the window being uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`): unfetched, the block
    index has not moved, the window being uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`): unfetched, the block
    index has not moved, the window being uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents (`hA`), a run ending with every array of the
    pipeline at what the proof data computes and every other unscoped buffer as the region found it ends with the
    argument arrays as launched: `main_arg0`, `main_arg1`, `main_arg2` are staged inputs, which end as the region
    found them; the other fifteen no window stages; and no host operation writes an argument (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The stores cover the output buffers -/

/-- Window 13's one store is through the whole rectangle, so it covers the buffer (checked by evaluation). -/
theorem cover0_13 (p0 : Vec F S256x1 .f32) (y : S256x1.Idx) :
    ∃ pc ∈ ([⟨rI, p0⟩] : List (View.Piece (Elt F) S256x1 .f32)), y ∈ pc.1.set :=
  View.cover_of_tiled [⟨rI, p0⟩] S256x1.size (by rfl) y
/-- Window 14's one store covers the buffer. -/
theorem cover0_14 (p0 : Vec F S256x1024 .f32) (y : S256x1024.Idx) :
    ∃ pc ∈ ([⟨rB, p0⟩] : List (View.Piece (Elt F) S256x1024 .f32)), y ∈ pc.1.set :=
  View.cover_of_tiled [⟨rB, p0⟩] S256x1024.size (by rfl) y
/-- Window 15's one store covers the buffer. -/
theorem cover0_15 (p0 : Vec F S256x1024 .f32) (y : S256x1024.Idx) :
    ∃ pc ∈ ([⟨rB, p0⟩] : List (View.Piece (Elt F) S256x1024 .f32)), y ∈ pc.1.set :=
  View.cover_of_tiled [⟨rB, p0⟩] S256x1024.size (by rfl) y

/-! ## The body's triple -/

set_option maxHeartbeats 1000000 in
/-- The kernel body on whole staging memrefs, the inputs' at contents `xW` and the outputs' at anything, runs to
    the continuation holding the inputs' as they were and each output's at `out0_W` of the inputs': it loads every
    memref whole (the outputs' loads are dead) and stores each output whole once, the stored values being the
    payloads over the loaded ones. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S512x4096 .bf16) (harg4 : arg4.IsWhole) (arg5 : Memref sig .tc .vmem S512x4096 .bf16) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1 .bf16) (harg11 : arg11.IsWhole) (arg12 : Memref sig .tc .vmem S1024x1 .bf16) (harg12 : arg12.IsWhole) (arg13 : Memref sig .tc .vmem S1x1 .f32) (harg13 : arg13.IsWhole) (arg14 : Memref sig .tc .vmem S256x1 .f32) (harg14 : arg14.IsWhole) (arg15 : Memref sig .tc .vmem S256x1024 .f32) (harg15 : arg15.IsWhole) (arg16 : Memref sig .tc .vmem S256x1024 .f32) (harg16 : arg16.IsWhole)
    (x0 : Vec F S256x512 .f32) (x1 x2 : Vec F S256x1024 .f32) (x3 x4 : Vec F S512x4096 .bf16) (x5 x6 : Vec F S1024x4096 .bf16) (x7 : Vec F S1x4096 .f32) (x8 x9 : Vec F S1024x1024 .bf16) (x10 x11 : Vec F S1024x1 .bf16) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__lstm_kernel_eq_skeleton]; unfold cc0__lstm_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (cover0_13 _)
  isplitl [H14]
  · iexists _; isplitr
    swap; · iexact H14
    ipureintro
    try dsimp only
    exact View.read_writes_eq_canon _ _ _ (cover0_14 _)
  iexists _; isplitr
  swap; · iexact H15
  ipureintro
  try dsimp only
  exact View.read_writes_eq_canon _ _ _ (cover0_15 _)

/-! ## The input windows' buffers under the proof data -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`: the invariant, what the core owes, and every window's current
    staging buffer whole, at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: the same with every buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the inputs' memrefs hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the library's run theorem are found by unifying its conclusion with this one, which
-- takes unfolding plain definitions in a metavariable's type
set_option backward.isDefEq.respectTransparency.types false in
/-- At the compiled mesh, for any values, from any memory with zero counters: every weakly fair execution of @main
    on the TensorCores terminates, and every final state has every array of the pipeline at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any float model: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.Spec.lean ====
/-
  The single LSTM step as one function of its arrays, entry by entry, on the extended reals.

  With  z(p, j) = Σ_k x(p,k)·W(k,j) + Σ_k h(p,k)·U(k,j) + b(j)  over the four gate column bands
  [0,1024), [1024,2048), [2048,3072), [3072,4096) of the fused weights, and σ the logistic function:
      c'(p,q)  = σ(z(p,q)) · σ(z(p,2048+q)) + σ(z(p,1024+q)) · c(p,q)
      h'(p,q)  = σ(z(p,3072+q) + Σ_k c(p,k)·V(k,q)) · tanh(c'(p,q))
      out(p,q) = Σ_k h'(p,k)·Wout(k,q) + bout(q)              (q ranges over one column)
-/
import Idealize.ShloMosaic.Lib.ValueIdx
import Idealize.ShloMosaic.PureOps.Ideal
import Idealize.ShloMosaic.PureOps.ShapeOps

noncomputable section

open scoped BigOperators

namespace Cert.Lstm

open Idealize.ShloMosaic Idealize.ShloMosaic.ValueIdx

/-- The arrays one step reads: the input rows, the previous hidden and cell rows, the fused input and hidden weights
    (four gates side by side) with the fused bias, the cell-to-output weights, and the read-out weights and bias. -/
structure Args where
  x : FVec Ideal ⟨2, ![16384, 512]⟩ .f32
  h : FVec Ideal ⟨2, ![16384, 1024]⟩ .f32
  c : FVec Ideal ⟨2, ![16384, 1024]⟩ .f32
  W : FVec Ideal ⟨2, ![512, 4096]⟩ .f32
  U : FVec Ideal ⟨2, ![1024, 4096]⟩ .f32
  b : FVec Ideal ⟨1, ![4096]⟩ .f32
  V : FVec Ideal ⟨2, ![1024, 1024]⟩ .f32
  Wout : FVec Ideal ⟨2, ![1024, 1]⟩ .f32
  bout : FVec Ideal ⟨1, ![1]⟩ .f32

/-- The four gates' weights side by side, and their biases end to end. -/
def fuseW (w0 w1 w2 w3 : FVec Ideal ⟨2, ![512, 1024]⟩ .f32) : FVec Ideal ⟨2, ![512, 4096]⟩ .f32 :=
  concatenate ⟨2, ![512, 4096]⟩ 1 [⟨⟨2, ![512, 1024]⟩, w0⟩, ⟨⟨2, ![512, 1024]⟩, w1⟩, ⟨⟨2, ![512, 1024]⟩, w2⟩, ⟨⟨2, ![512, 1024]⟩, w3⟩]
    (by decide : Shape.Concatenates [⟨2, ![512, 1024]⟩, ⟨2, ![512, 1024]⟩, ⟨2, ![512, 1024]⟩, ⟨2, ![512, 1024]⟩] ⟨2, ![512, 4096]⟩ 1)
def fuseU (w0 w1 w2 w3 : FVec Ideal ⟨2, ![1024, 1024]⟩ .f32) : FVec Ideal ⟨2, ![1024, 4096]⟩ .f32 :=
  concatenate ⟨2, ![1024, 4096]⟩ 1 [⟨⟨2, ![1024, 1024]⟩, w0⟩, ⟨⟨2, ![1024, 1024]⟩, w1⟩, ⟨⟨2, ![1024, 1024]⟩, w2⟩, ⟨⟨2, ![1024, 1024]⟩, w3⟩]
    (by decide : Shape.Concatenates [⟨2, ![1024, 1024]⟩, ⟨2, ![1024, 1024]⟩, ⟨2, ![1024, 1024]⟩, ⟨2, ![1024, 1024]⟩] ⟨2, ![1024, 4096]⟩ 1)
def fuseB (b0 b1 b2 b3 : FVec Ideal ⟨1, ![1024]⟩ .f32) : FVec Ideal ⟨1, ![4096]⟩ .f32 :=
  concatenate ⟨1, ![4096]⟩ 0 [⟨⟨1, ![1024]⟩, b0⟩, ⟨⟨1, ![1024]⟩, b1⟩, ⟨⟨1, ![1024]⟩, b2⟩, ⟨⟨1, ![1024]⟩, b3⟩]
    (by decide : Shape.Concatenates [⟨1, ![1024]⟩, ⟨1, ![1024]⟩, ⟨1, ![1024]⟩, ⟨1, ![1024]⟩] ⟨1, ![4096]⟩ 0)

/-- The step's arrays from the eighteen arguments, in the programs' order: input, h, c, then per gate i, f, g its
    input weights, hidden weights and bias, then the output gate's input, hidden and cell weights and bias, then the
    read-out weights and bias. -/
def ofArgs (a0 : FVec Ideal ⟨2, ![16384, 512]⟩ .f32) (a1 a2 : FVec Ideal ⟨2, ![16384, 1024]⟩ .f32)
    (a3 : FVec Ideal ⟨2, ![512, 1024]⟩ .f32) (a4 : FVec Ideal ⟨2, ![1024, 1024]⟩ .f32) (a5 : FVec Ideal ⟨1, ![1024]⟩ .f32)
    (a6 : FVec Ideal ⟨2, ![512, 1024]⟩ .f32) (a7 : FVec Ideal ⟨2, ![1024, 1024]⟩ .f32) (a8 : FVec Ideal ⟨1, ![1024]⟩ .f32)
    (a9 : FVec Ideal ⟨2, ![512, 1024]⟩ .f32) (a10 : FVec Ideal ⟨2, ![1024, 1024]⟩ .f32) (a11 : FVec Ideal ⟨1, ![1024]⟩ .f32)
    (a12 : FVec Ideal ⟨2, ![512, 1024]⟩ .f32) (a13 a14 : FVec Ideal ⟨2, ![1024, 1024]⟩ .f32) (a15 : FVec Ideal ⟨1, ![1024]⟩ .f32)
    (a16 : FVec Ideal ⟨2, ![1024, 1]⟩ .f32) (a17 : FVec Ideal ⟨1, ![1]⟩ .f32) : Args :=
  ⟨a0, a1, a2, fuseW a3 a6 a9 a12, fuseU a4 a7 a10 a13, fuseB a5 a8 a11 a15, a14, a16, a17⟩

/-- Column `o + q` of the fused gates: column `q` of the gate whose band starts at `o`. -/
def col (o : Nat) (ho : o + 1024 ≤ 4096) (q : Fin 1024) : Fin 4096 := ⟨o + q.val, by have := q.isLt; omega⟩

/-- The gates' pre-activations. -/
def z (a : Args) (p : Fin 16384) (j : Fin 4096) : EReal :=
  (∑ k : Fin 512, a.x (ix2 p k) * a.W (ix2 k j)) + (∑ k : Fin 1024, a.h (ix2 p k) * a.U (ix2 k j)) + a.b (ix1 j)

/-- The new cell state. -/
def cNew (a : Args) (p : Fin 16384) (q : Fin 1024) : EReal :=
  Ideal.logistic (z a p (col 0 (by omega) q)) * Ideal.logistic (z a p (col 2048 (by omega) q))
    + Ideal.logistic (z a p (col 1024 (by omega) q)) * a.c (ix2 p q)

/-- The new hidden state. -/
def hNew (a : Args) (p : Fin 16384) (q : Fin 1024) : EReal :=
  Ideal.logistic (z a p (col 3072 (by omega) q) + ∑ k : Fin 1024, a.c (ix2 p k) * a.V (ix2 k q)) * Ideal.tanh (cNew a p q)

/-- The read-out. -/
def outNew (a : Args) (p : Fin 16384) (q : Fin 1) : EReal :=
  (∑ k : Fin 1024, hNew a p k * a.Wout (ix2 k q)) + a.bout (ix1 q)

/-- The three results as whole arrays. -/
def Gc (a : Args) : FVec Ideal ⟨2, ![16384, 1024]⟩ .f32 := fun i => cNew a (i 0) (i 1)
def Gh (a : Args) : FVec Ideal ⟨2, ![16384, 1024]⟩ .f32 := fun i => hNew a (i 0) (i 1)
def Gout (a : Args) : FVec Ideal ⟨2, ![16384, 1]⟩ .f32 := fun i => outNew a (i 0) (i 1)

theorem Gc_apply (a : Args) (p : Fin 16384) (q : Fin 1024) : Gc a (ix2 p q) = cNew a p q := rfl
theorem Gh_apply (a : Args) (p : Fin 16384) (q : Fin 1024) : Gh a (ix2 p q) = hNew a p q := rfl
theorem Gout_apply (a : Args) (p : Fin 16384) (q : Fin 1) : Gout a (ix2 p q) = outNew a p q := rfl

/-- The logistic function and the hyperbolic tangent take real values everywhere, also at the infinities. -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩
theorem tanh_real (x : EReal) : ∃ r : ℝ, Ideal.tanh x = (r : EReal) := by
  induction x using EReal.rec with
  | bot => exact ⟨-1, by simp⟩
  | coe r => exact ⟨_, Ideal.tanh_coe r⟩
  | top => exact ⟨1, by simp⟩
/-- So the new hidden state is real. -/
theorem hNew_real (a : Args) (p : Fin 16384) (q : Fin 1024) : ∃ r : ℝ, hNew a p q = (r : EReal) := by
  obtain ⟨r1, h1⟩ := logistic_real (z a p (col 3072 (by omega) q) + ∑ k : Fin 1024, a.c (ix2 p k) * a.V (ix2 k q))
  obtain ⟨r2, h2⟩ := tanh_real (cNew a p q)
  exact ⟨r1 * r2, by unfold hNew; rw [h1, h2, EReal.coe_mul]⟩

end Cert.Lstm

end
-- ==== Proof.RefSide.lean ====
/-
  The reference program computes the LSTM step of the specification.

  The reference's three results, read at an index (p, q), are the specification's entries: its fused
  pre-activation array is z, its four column slices are z on the four gate bands, its expansions
  1 / (1 + exp (-v)) are the logistic function, and its two further contractions are the sums of hNew and outNew.
  The concatenated weights stay closed terms on both sides and are never read at an index.
-/
import proofs.«176781_j17205638987779_2_alg».proof.Proof.Gen.ReferenceIdeal.Read
import proofs.«176781_j17205638987779_2_alg».proof.Proof.Spec
import proofs.«176781_j17205638987779_2_alg».proof.Proof.Gen.Pre_finite_inputs
import proofs.«176781_j17205638987779_2_alg».proof.Defs
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.RefSide

open Idealize.ShloMosaic Idealize.ShloMosaic.ValueIdx Idealize.ShloMosaic.TcCoe Idealize.SL.Sem
open Cert.ReferenceIdeal Cert.ReferenceIdeal.Read Cert.Lstm

/-! ## Constants and the logistic expansion -/

/-- The bit pattern of the single-precision one denotes the real one. -/
theorem ofBits_one : Ideal.ofBits .f32 0x3F800000#32 = 1 := by
  simp [Ideal.ofBits, Ideal.ieee, -EReal.coe_mul]; norm_num

/-- The reference's expansion 1 / (1 + exp (-v)) is the logistic function. -/
theorem sigmoid_eq (v : Ideal .f32) :
    FloatOps.hostDivf (F := Ideal) (FloatOps.ofBits .f32 0x3F800000#32)
      (FloatOps.addf (FloatOps.ofBits .f32 0x3F800000#32) (FloatOps.hostUnary .exp (FloatOps.hostNegf v)))
    = Ideal.logistic v := by
  simp only [Ideal.hostDivf_def, Ideal.addf_def, Ideal.hostUnary_exp_def, Ideal.hostNegf_def, Ideal.negf_def,
    Ideal.ofBits_def, ofBits_one]
  rfl

/-! ## Index equations -/

theorem lidx3 (p : Fin 16384) (j : Fin 4096) (k : Fin 512) : lidx_main_v3 (ix2 p j) k = ix2 p k :=
  funext fun a => match a with | ⟨0, _⟩ => rfl | ⟨1, _⟩ => rfl
theorem ridx3 (p : Fin 16384) (j : Fin 4096) (k : Fin 512) : ridx_main_v3 (ix2 p j) k = ix2 k j :=
  funext fun a => match a with | ⟨0, _⟩ => rfl | ⟨1, _⟩ => rfl
theorem lidx4 (p : Fin 16384) (j : Fin 4096) (k : Fin 1024) : lidx_main_v4 (ix2 p j) k = ix2 p k :=
  funext fun a => match a with | ⟨0, _⟩ => rfl | ⟨1, _⟩ => rfl
theorem ridx4 (p : Fin 16384) (j : Fin 4096) (k : Fin 1024) : ridx_main_v4 (ix2 p j) k = ix2 k j :=
  funext fun a => match a with | ⟨0, _⟩ => rfl | ⟨1, _⟩ => rfl
theorem idx67 (p : Fin 16384) (j : Fin 4096) : idx_main_v6 (idx_main_v7 (ix2 p j)) = ix1 j :=
  funext fun a => match a with | ⟨0, _⟩ => rfl
theorem idx9 (p : Fin 16384) (q : Fin 1024) : idx_main_v9 (ix2 p q) = ix2 p (col 0 (by omega) q) :=
  funext fun a => match a with | ⟨0, _⟩ => rfl | ⟨1, _⟩ => Fin.ext (by show q.val = 0 + q.val; omega)
theorem idx10 (p : Fin 16384) (q : Fin 1024) : idx_main_v10 (ix2 p q) = ix2 p (col 1024 (by omega) q) :=
  funext fun a => match a with | ⟨0, _⟩ => rfl | ⟨1, _⟩ => rfl
theorem idx11 (p : Fin 16384) (q : Fin 1024) : idx_main_v11 (ix2 p q) = ix2 p (col 2048 (by omega) q) :=
  funext fun a => match a with | ⟨0, _⟩ => rfl | ⟨1, _⟩ => rfl
theorem idx12 (p : Fin 16384) (q : Fin 1024) : idx_main_v12 (ix2 p q) = ix2 p (col 3072 (by omega) q) :=
  funext fun a => match a with | ⟨0, _⟩ => rfl | ⟨1, _⟩ => rfl
theorem lidx34 (p : Fin 16384) (q k : Fin 1024) : lidx_main_v34 (ix2 p q) k = ix2 p k :=
  funext fun a => match a with | ⟨0, _⟩ => rfl | ⟨1, _⟩ => rfl
theorem ridx34 (p : Fin 16384) (q k : Fin 1024) : ridx_main_v34 (ix2 p q) k = ix2 k q :=
  funext fun a => match a with | ⟨0, _⟩ => rfl | ⟨1, _⟩ => rfl
theorem lidx44 (p : Fin 16384) (q : Fin 1) (k : Fin 1024) : lidx_main_v44 (ix2 p q) k = ix2 p k :=
  funext fun a => match a with | ⟨0, _⟩ => rfl | ⟨1, _⟩ => rfl
theorem ridx44 (p : Fin 16384) (q : Fin 1) (k : Fin 1024) : ridx_main_v44 (ix2 p q) k = ix2 k q :=
  funext fun a => match a with | ⟨0, _⟩ => rfl | ⟨1, _⟩ => rfl
theorem idx4546 (p : Fin 16384) (q : Fin 1) : idx_main_v45 (idx_main_v46 (ix2 p q)) = ix1 q :=
  funext fun a => match a with | ⟨0, _⟩ => Fin.ext (by show 0 = q.val; omega)

/-! ## The stages, entry by entry -/

section Stages

variable (x0 : FVec Ideal ⟨2, ![16384, 512]⟩ .f32) (x1 x2 : FVec Ideal ⟨2, ![16384, 1024]⟩ .f32)
  (x3 : FVec Ideal ⟨2, ![512, 1024]⟩ .f32) (x4 : FVec Ideal ⟨2, ![1024, 1024]⟩ .f32) (x5 : FVec Ideal ⟨1, ![1024]⟩ .f32)
  (x6 : FVec Ideal ⟨2, ![512, 1024]⟩ .f32) (x7 : FVec Ideal ⟨2, ![1024, 1024]⟩ .f32) (x8 : FVec Ideal ⟨1, ![1024]⟩ .f32)
  (x9 : FVec Ideal ⟨2, ![512, 1024]⟩ .f32) (x10 : FVec Ideal ⟨2, ![1024, 1024]⟩ .f32) (x11 : FVec Ideal ⟨1, ![1024]⟩ .f32)
  (x12 : FVec Ideal ⟨2, ![512, 1024]⟩ .f32) (x13 x14 : FVec Ideal ⟨2, ![1024, 1024]⟩ .f32) (x15 : FVec Ideal ⟨1, ![1024]⟩ .f32)
  (x16 : FVec Ideal ⟨2, ![1024, 1]⟩ .f32) (x17 : FVec Ideal ⟨1, ![1]⟩ .f32)

/-- The reference's joined weights and biases are the specification's, as closed terms. -/
theorem v0_eq : val_main_v0 (F := Ideal) x3 x6 x9 x12 = fuseW x3 x6 x9 x12 := rfl
theorem v1_eq : val_main_v1 (F := Ideal) x4 x7 x10 x13 = fuseU x4 x7 x10 x13 := rfl
theorem v2_eq : val_main_v2 (F := Ideal) x5 x8 x11 x15 = fuseB x5 x8 x11 x15 := rfl

/-- The fused pre-activation: both contractions, then the bias along the columns. -/
theorem v8_at (p : Fin 16384) (j : Fin 4096) :
    val_main_v8 (F := Ideal) x0 x1 x3 x4 x5 x6 x7 x8 x9 x10 x11 x12 x13 x15 (ix2 p j) = z (ofArgs x0 x1 x2 x3 x4 x5 x6 x7 x8 x9 x10 x11 x12 x13 x14 x15 x16 x17) p j := by
  rw [val_main_v8_apply, val_main_v5_apply, val_main_v3_apply, val_main_v4_apply, val_main_v7_apply, val_main_v6_apply]
  simp only [lidx3, ridx3, lidx4, ridx4, idx67, v0_eq, v1_eq, v2_eq, Ideal.addf_def]
  rfl

/-- The four column slices are the fused pre-activation on the four gate bands. -/
theorem v9_at (p : Fin 16384) (q : Fin 1024) :
    val_main_v9 (F := Ideal) x0 x1 x3 x4 x5 x6 x7 x8 x9 x10 x11 x12 x13 x15 (ix2 p q) = z (ofArgs x0 x1 x2 x3 x4 x5 x6 x7 x8 x9 x10 x11 x12 x13 x14 x15 x16 x17) p (col 0 (by omega) q) := by
  rw [val_main_v9_apply, idx9]; exact v8_at x0 x1 x2 x3 x4 x5 x6 x7 x8 x9 x10 x11 x12 x13 x14 x15 x16 x17 p _
theorem v10_at (p : Fin 16384) (q : Fin 1024) :
    val_main_v10 (F := Ideal) x0 x1 x3 x4 x5 x6 x7 x8 x9 x10 x11 x12 x13 x15 (ix2 p q) = z (ofArgs x0 x1 x2 x3 x4 x5 x6 x7 x8 x9 x10 x11 x12 x13 x14 x15 x16 x17) p (col 1024 (by omega) q) := by
  rw [val_main_v10_apply, idx10]; exact v8_at x0 x1 x2 x3 x4 x5 x6 x7 x8 x9 x10 x11 x12 x13 x14 x15 x16 x17 p _
theorem v11_at (p : Fin 16384) (q : Fin 1024) :
    val_main_v11 (F := Ideal) x0 x1 x3 x4 x5 x6 x7 x8 x9 x10 x11 x12 x13 x15 (ix2 p q) = z (ofArgs x0 x1 x2 x3 x4 x5 x6 x7 x8 x9 x10 x11 x12 x13 x14 x15 x16 x17) p (col 2048 (by omega) q) := by
  rw [val_main_v11_apply, idx11]; exact v8_at x0 x1 x2 x3 x4 x5 x6 x7 x8 x9 x10 x11 x12 x13 x14 x15 x16 x17 p _
theorem v12_at (p : Fin 16384) (q : Fin 1024) :
    val_main_v12 (F := Ideal) x0 x1 x3 x4 x5 x6 x7 x8 x9 x10 x11 x12 x13 x15 (ix2 p q) = z (ofArgs x0 x1 x2 x3 x4 x5 x6 x7 x8 x9 x10 x11 x12 x13 x14 x15 x16 x17) p (col 3072 (by omega) q) := by
  rw [val_main_v12_apply, idx12]; exact v8_at x0 x1 x2 x3 x4 x5 x6 x7 x8 x9 x10 x11 x12 x13 x14 x15 x16 x17 p _

/-- The three gates that make the new cell state are the logistic function of their bands. -/
theorem v18_at (p : Fin 16384) (q : Fin 1024) :
    val_main_v18 (F := Ideal) x0 x1 x3 x4 x5 x6 x7 x8 x9 x10 x11 x12 x13 x15 (ix2 p q)
      = Ideal.logistic (z (ofArgs x0 x1 x2 x3 x4 x5 x6 x7 x8 x9 x10 x11 x12 x13 x14 x15 x16 x17) p (col 0 (by omega) q)) := by
  rw [val_main_v18_apply, val_main_v17_apply, val_main_cst_0_apply, val_main_v16_apply, val_main_v15_apply,
    val_main_cst_apply, val_main_v14_apply, val_main_v13_apply, v9_at x0 x1 x2 x3 x4 x5 x6 x7 x8 x9 x10 x11 x12 x13 x14 x15 x16 x17]
  exact sigmoid_eq _
theorem v24_at (p : Fin 16384) (q : Fin 1024) :
    val_main_v24 (F := Ideal) x0 x1 x3 x4 x5 x6 x7 x8 x9 x10 x11 x12 x13 x15 (ix2 p q)
      = Ideal.logistic (z (ofArgs x0 x1 x2 x3 x4 x5 x6 x7 x8 x9 x10 x11 x12 x13 x14 x15 x16 x17) p (col 1024 (by omega) q)) := by
  rw [val_main_v24_apply, val_main_v23_apply, val_main_cst_2_apply, val_main_v22_apply, val_main_v21_apply,
    val_main_cst_1_apply, val_main_v20_apply, val_main_v19_apply, v10_at x0 x1 x2 x3 x4 x5 x6 x7 x8 x9 x10 x11 x12 x13 x14 x15 x16 x17]
  exact sigmoid_eq _
theorem v30_at (p : Fin 16384) (q : Fin 1024) :
    val_main_v30 (F := Ideal) x0 x1 x3 x4 x5 x6 x7 x8 x9 x10 x11 x12 x13 x15 (ix2 p q)
      = Ideal.logistic (z (ofArgs x0 x1 x2 x3 x4 x5 x6 x7 x8 x9 x10 x11 x12 x13 x14 x15 x16 x17) p (col 2048 (by omega) q)) := by
  rw [val_main_v30_apply, val_main_v29_apply, val_main_cst_4_apply, val_main_v28_apply, val_main_v27_apply,
    val_main_cst_3_apply, val_main_v26_apply, val_main_v25_apply, v11_at x0 x1 x2 x3 x4 x5 x6 x7 x8 x9 x10 x11 x12 x13 x14 x15 x16 x17]
  exact sigmoid_eq _

/-- The new cell state. -/
theorem v33_at (p : Fin 16384) (q : Fin 1024) :
    val_main_v33 (F := Ideal) x0 x1 x2 x3 x4 x5 x6 x7 x8 x9 x10 x11 x12 x13 x15 (ix2 p q) = cNew (ofArgs x0 x1 x2 x3 x4 x5 x6 x7 x8 x9 x10 x11 x12 x13 x14 x15 x16 x17) p q := by
  rw [val_main_v33_apply, val_main_v31_apply, val_main_v32_apply, v18_at x0 x1 x2 x3 x4 x5 x6 x7 x8 x9 x10 x11 x12 x13 x14 x15 x16 x17, v30_at x0 x1 x2 x3 x4 x5 x6 x7 x8 x9 x10 x11 x12 x13 x14 x15 x16 x17, v24_at x0 x1 x2 x3 x4 x5 x6 x7 x8 x9 x10 x11 x12 x13 x14 x15 x16 x17]
  rfl

/-- The output gate reads its band plus the cell state's contraction; the new hidden state follows. -/
theorem v41_at (p : Fin 16384) (q : Fin 1024) :
    val_main_v41 (F := Ideal) x0 x1 x2 x3 x4 x5 x6 x7 x8 x9 x10 x11 x12 x13 x14 x15 (ix2 p q)
      = Ideal.logistic (z (ofArgs x0 x1 x2 x3 x4 x5 x6 x7 x8 x9 x10 x11 x12 x13 x14 x15 x16 x17) p (col 3072 (by omega) q)
          + ∑ k : Fin 1024, x2 (ix2 p k) * x14 (ix2 k q)) := by
  rw [val_main_v41_apply, val_main_v40_apply, val_main_cst_6_apply, val_main_v39_apply, val_main_v38_apply,
    val_main_cst_5_apply, val_main_v37_apply, val_main_v36_apply, val_main_v35_apply, val_main_v34_apply,
    v12_at x0 x1 x2 x3 x4 x5 x6 x7 x8 x9 x10 x11 x12 x13 x14 x15 x16 x17]
  simp only [lidx34, ridx34]
  exact sigmoid_eq _
theorem v43_at (p : Fin 16384) (q : Fin 1024) :
    val_main_v43 (F := Ideal) x0 x1 x2 x3 x4 x5 x6 x7 x8 x9 x10 x11 x12 x13 x14 x15 (ix2 p q) = hNew (ofArgs x0 x1 x2 x3 x4 x5 x6 x7 x8 x9 x10 x11 x12 x13 x14 x15 x16 x17) p q := by
  rw [val_main_v43_apply, val_main_v42_apply, v41_at x0 x1 x2 x3 x4 x5 x6 x7 x8 x9 x10 x11 x12 x13 x14 x15 x16 x17, v33_at x0 x1 x2 x3 x4 x5 x6 x7 x8 x9 x10 x11 x12 x13 x14 x15 x16 x17]
  rfl

/-- The read-out: the new hidden row against the one output column, plus its bias. -/
theorem v47_at (p : Fin 16384) (q : Fin 1) :
    val_main_v47 (F := Ideal) x0 x1 x2 x3 x4 x5 x6 x7 x8 x9 x10 x11 x12 x13 x14 x15 x16 x17 (ix2 p q) = outNew (ofArgs x0 x1 x2 x3 x4 x5 x6 x7 x8 x9 x10 x11 x12 x13 x14 x15 x16 x17) p q := by
  rw [val_main_v47_apply, val_main_v44_apply, val_main_v46_apply, val_main_v45_apply, idx4546]
  simp only [lidx44, ridx44, v43_at x0 x1 x2 x3 x4 x5 x6 x7 x8 x9 x10 x11 x12 x13 x14 x15 x16 x17]
  rfl

/-! ## The three results as whole arrays -/

theorem v33_eq : val_main_v33 (F := Ideal) x0 x1 x2 x3 x4 x5 x6 x7 x8 x9 x10 x11 x12 x13 x15 = Gc (ofArgs x0 x1 x2 x3 x4 x5 x6 x7 x8 x9 x10 x11 x12 x13 x14 x15 x16 x17) := by
  funext i
  obtain ⟨p, q, rfl⟩ : ∃ (p : Fin 16384) (q : Fin 1024), i = ix2 p q := ⟨i 0, i 1, eq_ix2 i⟩
  exact v33_at x0 x1 x2 x3 x4 x5 x6 x7 x8 x9 x10 x11 x12 x13 x14 x15 x16 x17 p q
theorem v43_eq : val_main_v43 (F := Ideal) x0 x1 x2 x3 x4 x5 x6 x7 x8 x9 x10 x11 x12 x13 x14 x15 = Gh (ofArgs x0 x1 x2 x3 x4 x5 x6 x7 x8 x9 x10 x11 x12 x13 x14 x15 x16 x17) := by
  funext i
  obtain ⟨p, q, rfl⟩ : ∃ (p : Fin 16384) (q : Fin 1024), i = ix2 p q := ⟨i 0, i 1, eq_ix2 i⟩
  exact v43_at x0 x1 x2 x3 x4 x5 x6 x7 x8 x9 x10 x11 x12 x13 x14 x15 x16 x17 p q
theorem v47_eq : val_main_v47 (F := Ideal) x0 x1 x2 x3 x4 x5 x6 x7 x8 x9 x10 x11 x12 x13 x14 x15 x16 x17 = Gout (ofArgs x0 x1 x2 x3 x4 x5 x6 x7 x8 x9 x10 x11 x12 x13 x14 x15 x16 x17) := by
  funext i
  obtain ⟨p, q, rfl⟩ : ∃ (p : Fin 16384) (q : Fin 1), i = ix2 p q := ⟨i 0, i 1, eq_ix2 i⟩
  exact v47_at x0 x1 x2 x3 x4 x5 x6 x7 x8 x9 x10 x11 x12 x13 x14 x15 x16 x17 p q

end Stages

/-! ## The run -/

/-- the step's arrays as the reference finds them on core c -/
def refArgs (m' : (ℓ : Loc Cert.ReferenceIdeal.nD Cert.ReferenceIdeal.τ Cert.ReferenceIdeal.sig) → Buf (Elt Ideal) ℓ)
    (c : Dev Cert.ReferenceIdeal.nD) : Cert.Lstm.Args :=
  Cert.Lstm.ofArgs (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))

/-- Every weakly fair execution of the reference ends with its three results at the specification's arrays of the
    arguments it was launched with, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v47) = Cert.Lstm.Gout (refArgs m' c)
      ∧ r.2.mem ((c.tc : Thread Cert.ReferenceIdeal.nD Cert.ReferenceIdeal.τ).loc Cert.ReferenceIdeal.main_v43) = Cert.Lstm.Gh (refArgs m' c)
      ∧ r.2.mem ((c.tc : Thread Cert.ReferenceIdeal.nD Cert.ReferenceIdeal.τ).loc Cert.ReferenceIdeal.main_v33) = Cert.Lstm.Gc (refArgs m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)) :=
  (θ_run Cert.ReferenceIdeal.defs _ _).mono (fun _ h c =>
      ⟨(h c).1.trans ((val_main_v47_eq m' c).trans (v47_eq _ _ _ _ _ _ _ _ _ _ _ _ _ _ _ _ _ _)),
       (h c).2.1.trans ((val_main_v43_eq m' c).trans (v43_eq _ _ _ _ _ _ _ _ _ _ _ _ _ _ _ _ _ _)),
       (h c).2.2.1.trans ((val_main_v33_eq m' c).trans (v33_eq _ _ _ _ _ _ _ _ _ _ _ _ _ _ _ _ _ _)),
       (h c).2.2.2⟩)
    (Cert.ReferenceIdeal.Value.run (F := Ideal) m' ρ')

/-- The reference runs and leaves its arguments unchanged. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.RefSide

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.LibSplit.lean ====
/-
  General facts, at the ideal values, about a matrix product computed in three passes from a two-term split of each
  operand: with hi = x and lo = x - x (what the split becomes once a change of float format is the identity), the sum
  hi·hi + hi·lo + lo·hi is the plain product whenever the entries are real numbers, because then lo = 0.
-/
import proofs.«176781_j17205638987779_2_alg».proof.Proof.LibPlain

noncomputable section

open scoped BigOperators

namespace Idealize.ShloMosaic

open ValueIdx

/-- A real number less itself is zero, also as an extended real. -/
theorem EReal.coe_sub_self (r : ℝ) : (r : EReal) - (r : EReal) = 0 := by
  rw [← EReal.coe_sub, sub_self, EReal.coe_zero]

/-- An extended real that is a real, less itself, is zero. -/
theorem EReal.sub_self_of_real {x : EReal} (h : ∃ r : ℝ, x = (r : EReal)) : x - x = 0 := by
  obtain ⟨r, rfl⟩ := h; exact EReal.coe_sub_self r

/-- A sum of products whose right factors all vanish is zero. -/
theorem sum_mul_eq_zero_right {K : Nat} (f g : Fin K → EReal) (hg : ∀ k, g k = 0) : ∑ k : Fin K, f k * g k = 0 :=
  Finset.sum_eq_zero fun k _ => by rw [hg k, mul_zero]

/-- A sum of products whose left factors all vanish is zero. -/
theorem sum_mul_eq_zero_left {K : Nat} (f g : Fin K → EReal) (hf : ∀ k, f k = 0) : ∑ k : Fin K, f k * g k = 0 :=
  Finset.sum_eq_zero fun k _ => by rw [hf k, zero_mul]

/-- The three-pass product at (p, q): the left operand `L` with its residual `L - L`, the right operand given as its
    two parts `Rhi` and `Rlo`, the latter a residual `w - w` of real entries: hi·hi + hi·lo + lo·hi is Σ_k L(p,k)·Rhi(k,q). -/
theorem Ideal.matmul_split3_apply {M K N : Nat} {φ₁ φ₂ φ₃ : FTy} (prec : Option ContractPrecision)
    (Lhi : FVec Ideal ⟨2, ![M, K]⟩ φ₁) (Llo : FVec Ideal ⟨2, ![M, K]⟩ φ₃) (Rhi Rlo : FVec Ideal ⟨2, ![K, N]⟩ φ₂) (p : Fin M) (q : Fin N)
    (hLlo : ∀ k, Llo (ix2 p k) = 0) (hRlo : ∀ k, Rlo (ix2 k q) = 0) :
    FloatOps.matmul (DotDims.plain M K N) prec Lhi Rhi (constant ⟨2, ![M, N]⟩ .f32 0x00000000#32) (ix2 p q)
      + FloatOps.matmul (DotDims.plain M K N) prec Lhi Rlo (constant ⟨2, ![M, N]⟩ .f32 0x00000000#32) (ix2 p q)
      + FloatOps.matmul (DotDims.plain M K N) prec Llo Rhi (constant ⟨2, ![M, N]⟩ .f32 0x00000000#32) (ix2 p q)
      = ∑ k : Fin K, Lhi (ix2 p k) * Rhi (ix2 k q) := by
  rw [Ideal.matmul_plain_zero_apply, Ideal.matmul_plain_zero_apply, Ideal.matmul_plain_zero_apply,
    sum_mul_eq_zero_right _ _ hRlo, sum_mul_eq_zero_left _ _ hLlo, add_zero, add_zero]

end Idealize.ShloMosaic

end
-- ==== Proof.Payload.lean ====
/-
  The kernel body's arithmetic at the ideal values, entry by entry: what the three stored values are, in terms of the
  step's arrays (Spec), when the thirteen loaded values are the blocks of those arrays over a set of rows and the
  "low" halves of the split operands vanish.
-/
import proofs.«176781_j17205638987779_2_alg».proof.Proof.Gen.KernelIdeal.Skeleton
import proofs.«176781_j17205638987779_2_alg».proof.Proof.Spec
import proofs.«176781_j17205638987779_2_alg».proof.Proof.LibSplit
import Idealize.ShloMosaic.Lib.Pipeline.Value
import Idealize.ShloMosaic.Lib.ValueLayout

noncomputable section

open scoped BigOperators

namespace Cert.Lstm.Body

open Cert.KernelIdeal Cert.KernelIdeal.Gen Idealize.ShloMosaic Idealize.ShloMosaic.ValueIdx Cert.Lstm

/-- The printed dimension records of the body's four products are the plain [M,K]×[K,N] ones. -/
theorem dotA_eq : dot_S256x512_S512x4096_S256x4096_1_0_0_1_n_n = DotDims.plain 256 512 4096 := rfl
theorem dotB_eq : dot_S256x1024_S1024x4096_S256x4096_1_0_0_1_n_n = DotDims.plain 256 1024 4096 := rfl
theorem dotC_eq : dot_S256x1024_S1024x1024_S256x1024_1_0_0_1_n_n = DotDims.plain 256 1024 1024 := rfl
theorem dotD_eq : dot_S256x1024_S1024x1_S256x1_1_0_0_1_n_n = DotDims.plain 256 1024 1 := rfl

/-- The logistic function and the hyperbolic tangent of a vector, at an index. -/
theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

variable (a : Args) (ρ : Fin 256 → Fin 16384)

/-- The two fused products: with the input rows and hidden rows of the block at the rows `ρ`, the weights' high
    halves the weights and their low halves zero, the sum of the two three-pass products at (r, j) is
    Σ_k x(ρ r,k)·W(k,j) + Σ_k h(ρ r,k)·U(k,j). -/
theorem pay3_apply (v0 : Vec Ideal S256x512 .f32) (v1 : Vec Ideal S256x1024 .f32) (v15 v17 : Vec Ideal S512x4096 .bf16)
    (v24 v26 : Vec Ideal S1024x4096 .bf16)
    (hx : ∀ r k, v0 (ix2 r k) = a.x (ix2 (ρ r) k)) (hh : ∀ r k, v1 (ix2 r k) = a.h (ix2 (ρ r) k))
    (hxr : ∀ i, ∃ s : ℝ, a.x i = (s : EReal)) (hhr : ∀ i, ∃ s : ℝ, a.h i = (s : EReal))
    (hW : ∀ k j, v15 (ix2 k j) = a.W (ix2 k j)) (hWlo : ∀ k j, v17 (ix2 k j) = 0)
    (hU : ∀ k j, v24 (ix2 k j) = a.U (ix2 k j)) (hUlo : ∀ k j, v26 (ix2 k j) = 0)
    (r : Fin 256) (j : Fin 4096) :
    k0_pay3 v0 v1 v15 v17 v24 v26 (ix2 r j)
      = (∑ k : Fin 512, a.x (ix2 (ρ r) k) * a.W (ix2 k j)) + ∑ k : Fin 1024, a.h (ix2 (ρ r) k) * a.U (ix2 k j) := by
  unfold k0_pay3
  simp only [shapeCast_self, dotA_eq, dotB_eq]
  rw [addf_apply, addf_apply, addf_apply, addf_apply, addf_apply,
    Ideal.matmul_split3_apply none _ _ v15 v17 r j
      (fun k => by show v0 (ix2 r k) - v0 (ix2 r k) = 0; rw [hx]; exact EReal.sub_self_of_real (hxr _)) (fun k => hWlo k j),
    Ideal.matmul_split3_apply none _ _ v24 v26 r j
      (fun k => by show v1 (ix2 r k) - v1 (ix2 r k) = 0; rw [hh]; exact EReal.sub_self_of_real (hhr _)) (fun k => hUlo k j)]
  refine congrArg₂ (· + ·) (Finset.sum_congr rfl fun k _ => ?_) (Finset.sum_congr rfl fun k _ => ?_)
  · show v0 (ix2 r k) * v15 (ix2 k j) = _; rw [hx, hW]
  · show v1 (ix2 r k) * v24 (ix2 k j) = _; rw [hh, hU]

/-- The fused bias, one row broadcast over the block's rows: at (r, j) the bias at j. -/
theorem pay4_apply (v34 : Vec Ideal S1x4096 .f32) (hb : ∀ j, v34 (ix2 (0 : Fin 1) j) = a.b (ix1 j)) (r : Fin 256) (j : Fin 4096) :
    k0_pay4 v34 (ix2 r j) = a.b (ix1 j) := by
  unfold k0_pay4
  simp only [shapeCast_self]
  exact (broadcastTo_1b_ab_apply v34 _ r j).trans (hb j)

/-- What the loaded values are, in terms of the step's arrays at the rows `ρ`: the three row blocks; the weights'
    high halves the weights, their low halves zero; the bias rows; and the entries of the split row blocks real. -/
structure Loaded (v0 : Vec Ideal S256x512 .f32) (v1 v2 : Vec Ideal S256x1024 .f32) (v15 v17 : Vec Ideal S512x4096 .bf16)
    (v24 v26 : Vec Ideal S1024x4096 .bf16) (v34 : Vec Ideal S1x4096 .f32) (v48 v50 : Vec Ideal S1024x1024 .bf16)
    (v65 v67 : Vec Ideal S1024x1 .bf16) (v74 : Vec Ideal S1x1 .f32) : Prop where
  hx : ∀ r k, v0 (ix2 r k) = a.x (ix2 (ρ r) k)
  hh : ∀ r k, v1 (ix2 r k) = a.h (ix2 (ρ r) k)
  hc : ∀ r k, v2 (ix2 r k) = a.c (ix2 (ρ r) k)
  hxr : ∀ i, ∃ s : ℝ, a.x i = (s : EReal)
  hhr : ∀ i, ∃ s : ℝ, a.h i = (s : EReal)
  hcr : ∀ i, ∃ s : ℝ, a.c i = (s : EReal)
  hW : ∀ k j, v15 (ix2 k j) = a.W (ix2 k j)
  hWlo : ∀ k j, v17 (ix2 k j) = 0
  hU : ∀ k j, v24 (ix2 k j) = a.U (ix2 k j)
  hUlo : ∀ k j, v26 (ix2 k j) = 0
  hb : ∀ j, v34 (ix2 (0 : Fin 1) j) = a.b (ix1 j)
  hV : ∀ k q, v48 (ix2 k q) = a.V (ix2 k q)
  hVlo : ∀ k q, v50 (ix2 k q) = 0
  hO : ∀ k q, v65 (ix2 k q) = a.Wout (ix2 k q)
  hOlo : ∀ k q, v67 (ix2 k q) = 0
  hbo : v74 (ix2 (0 : Fin 1) (0 : Fin 1)) = a.bout (ix1 (0 : Fin 1))

variable {a ρ}
variable {v0 : Vec Ideal S256x512 .f32} {v1 v2 : Vec Ideal S256x1024 .f32} {v15 v17 : Vec Ideal S512x4096 .bf16}
    {v24 v26 : Vec Ideal S1024x4096 .bf16} {v34 : Vec Ideal S1x4096 .f32} {v48 v50 : Vec Ideal S1024x1024 .bf16}
    {v65 v67 : Vec Ideal S1024x1 .bf16} {v74 : Vec Ideal S1x1 .f32}

/-- The gates' pre-activations of the block: at (r, j) the step's z at row ρ r. -/
theorem pay5_apply (L : Loaded a ρ v0 v1 v2 v15 v17 v24 v26 v34 v48 v50 v65 v67 v74) (r : Fin 256) (j : Fin 4096) :
    k0_pay5 (k0_pay3 v0 v1 v15 v17 v24 v26) (k0_pay4 v34) (ix2 r j) = z a (ρ r) j := by
  unfold k0_pay5
  rw [addf_apply, pay3_apply a ρ v0 v1 v15 v17 v24 v26 L.hx L.hh L.hxr L.hhr L.hW L.hWlo L.hU L.hUlo, pay4_apply a v34 L.hb]
  rfl

/-- One gate's band of the pre-activations: the slice of 1024 columns from `o`, at (r, q), is z at column o + q. -/
theorem band_apply (L : Loaded a ρ v0 v1 v2 v15 v17 v24 v26 v34 v48 v50 v65 v67 v74) (o : Nat) (ho : o + 1024 ≤ 4096)
    (h : S256x4096.Slices ![0, o] S256x1024) (r : Fin 256) (q : Fin 1024) :
    extractStridedSlice S256x1024 ![0, o] (k0_pay5 (k0_pay3 v0 v1 v15 v17 v24 v26) (k0_pay4 v34)) h (ix2 r q)
      = z a (ρ r) (col o ho q) :=
  (slice2_axis1_apply o _ h r q (col o ho q) rfl).trans (pay5_apply L r (col o ho q))

/-- The new cell state of the block. -/
theorem pay6_apply (L : Loaded a ρ v0 v1 v2 v15 v17 v24 v26 v34 v48 v50 v65 v67 v74) (r : Fin 256) (q : Fin 1024) :
    k0_pay6 v2 (k0_pay3 v0 v1 v15 v17 v24 v26) (k0_pay4 v34) (ix2 r q) = cNew a (ρ r) q := by
  unfold k0_pay6
  simp only [addf_apply, mulf_apply, logistic_apply]
  rw [band_apply L 0 (by omega), band_apply L 2048 (by omega), band_apply L 1024 (by omega), L.hc]
  rfl

/-- The new hidden state of the block. -/
theorem pay7_apply (L : Loaded a ρ v0 v1 v2 v15 v17 v24 v26 v34 v48 v50 v65 v67 v74) (r : Fin 256) (q : Fin 1024) :
    k0_pay7 v2 (k0_pay1 v2) (k0_pay2 v2) (k0_pay3 v0 v1 v15 v17 v24 v26) (k0_pay4 v34) v48 v50 (ix2 r q) = hNew a (ρ r) q := by
  unfold k0_pay7 k0_pay1 k0_pay2
  simp only [shapeCast_self, dotC_eq]
  simp only [mulf_apply, logistic_apply, tanh_apply, addf_apply]
  rw [band_apply L 3072 (by omega),
    Ideal.matmul_split3_apply none _ _ v48 v50 r q
      (fun k => by show v2 (ix2 r k) - v2 (ix2 r k) = 0; rw [L.hc]; exact EReal.sub_self_of_real (L.hcr _)) (fun k => L.hVlo k q),
    pay6_apply L]
  unfold hNew
  refine congrArg (fun s => Ideal.logistic (z a (ρ r) (col 3072 (by omega) q) + s) * Ideal.tanh (cNew a (ρ r) q))
    (Finset.sum_congr rfl fun k _ => ?_)
  show v2 (ix2 r k) * v48 (ix2 k q) = _; rw [L.hc, L.hV]

/-- The read-out of the block. -/
theorem pay8_apply (L : Loaded a ρ v0 v1 v2 v15 v17 v24 v26 v34 v48 v50 v65 v67 v74) (r : Fin 256) (q : Fin 1) :
    k0_pay8 v2 (k0_pay1 v2) (k0_pay2 v2) (k0_pay3 v0 v1 v15 v17 v24 v26) (k0_pay4 v34) v48 v50 v65 v67 v74 (ix2 r q)
      = outNew a (ρ r) q := by
  obtain rfl : q = 0 := Subsingleton.elim _ _
  unfold k0_pay8
  simp only [shapeCast_self, dotD_eq]
  simp only [addf_apply]
  rw [Ideal.matmul_split3_apply none _ _ v65 v67 r 0
      (fun k => by
        show k0_pay7 v2 (k0_pay1 v2) (k0_pay2 v2) (k0_pay3 v0 v1 v15 v17 v24 v26) (k0_pay4 v34) v48 v50 (ix2 r k)
          - k0_pay7 v2 (k0_pay1 v2) (k0_pay2 v2) (k0_pay3 v0 v1 v15 v17 v24 v26) (k0_pay4 v34) v48 v50 (ix2 r k) = 0
        rw [pay7_apply L]; exact EReal.sub_self_of_real (hNew_real a (ρ r) k)) (fun k => L.hOlo k 0),
    broadcastTo_1b_ab_apply v74 _ r 0, L.hbo]
  unfold outNew
  refine congrArg (· + a.bout (ix1 0)) (Finset.sum_congr rfl fun k _ => ?_)
  show k0_pay7 v2 (k0_pay1 v2) (k0_pay2 v2) (k0_pay3 v0 v1 v15 v17 v24 v26) (k0_pay4 v34) v48 v50 (ix2 r k) * v65 (ix2 k 0) = _
  rw [pay7_apply L, L.hO]

end Cert.Lstm.Body

end
-- ==== Proof.Rows.lean ====
/-
  The rows of one block: the grid's point t works on rows 256·t … 256·t + 255 of the 16384 rows.
-/
import proofs.«176781_j17205638987779_2_alg».proof.Proof.Spec

namespace Cert.Lstm

/-- Row `r` of block `t` among all rows. -/
def row (t : Fin 64) (r : Fin 256) : Fin 16384 := ⟨256 * t.val + r.val, by have := t.isLt; have := r.isLt; omega⟩

theorem row_val (t : Fin 64) (r : Fin 256) : (row t r).val = 256 * t.val + r.val := rfl

/-- Every row lies in exactly one block, at one place. -/
theorem row_surj (p : Fin 16384) : ∃ (t : Fin 64) (r : Fin 256), row t r = p :=
  ⟨⟨p.val / 256, by have := p.isLt; omega⟩, ⟨p.val % 256, by omega⟩, Fin.ext (by show 256 * (p.val / 256) + p.val % 256 = p.val; omega)⟩

end Cert.Lstm
-- ==== Proof.KerArgs.lean ====
/-
  The step's arrays as the kernel's program finds them in its launch memory on one core, and the grid's points as
  block numbers.
-/
import proofs.«176781_j17205638987779_2_alg».proof.Proof.KIData
import proofs.«176781_j17205638987779_2_alg».proof.Proof.Rows

noncomputable section

namespace Cert.KerSide

open Cert.KernelIdeal Cert.KernelIdeal.Gen Idealize.ShloMosaic Idealize.ShloMosaic.TcCoe Idealize.SL.Sem

/-- The step's arrays from the eighteen argument buffers of core `c`. -/
def kerArgs (m : (ℓ : Loc nD τ sig) → Buf (Elt Ideal) ℓ) (c : Dev nD) : Cert.Lstm.Args :=
  Cert.Lstm.ofArgs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))

/-- A point of the grid as a block number. -/
abbrev pt (t : Fin cfg0.N) : Fin 64 := Fin.cast N_0 t

theorem pt_val (t : Fin cfg0.N) : (pt t).val = t.val := rfl

end Cert.KerSide

end
-- ==== Proof.PreReal.lean ====
/- The precondition read back: "every float input is finite", printed as eighteen `jnp.all(|a| < inf)`
   conjoined by `and`, says at the ideal values that every entry of every argument array is a real number
   (neither infinity of the extended reals). -/
import proofs.«176781_j17205638987779_2_alg».proof.Defs
import proofs.«176781_j17205638987779_2_alg».proof.Proof.Gen.Pre_finite_inputs
import Idealize.ShloMosaic.Lib.ReduceAll
import Idealize.ShloMosaic.Lib.ValueIdx

noncomputable section

namespace Cert.PreReal

open Idealize.ShloMosaic Idealize.SL.Sem Cert.Pre_finite_inputs

/-- The scalar shape has one index. -/
instance : Subsingleton S_.Idx := ⟨fun a b => funext fun d => d.elim0⟩

/-- The word `0x7F800000` is `+∞` at the ideal values. -/
theorem ofBits_inf_f32 : Ideal.ofBits .f32 0x7F800000#32 = ⊤ := by simp [Ideal.ofBits, Ideal.ieee]

/-- An extended real whose absolute value `max x (-x)` tests below `+∞` is a real number:
    at either infinity the absolute value is `+∞`, which is not below itself. -/
theorem real_of_abs_lt_top (x : EReal) (hx : Ideal.cmp .olt (max x (-x)) ⊤ = 1#1) : ∃ r : ℝ, x = (r : EReal) := by
  induction x using EReal.rec with
  | bot => simp [Ideal.cmp] at hx
  | top => simp [Ideal.cmp] at hx
  | coe r => exact ⟨r, rfl⟩

/-- One `jnp.all(|a| < inf)` read back, for an array of any shape: if the reduction by `and` of the
    elementwise test comes out 1, every entry of `a` is a real number. -/
theorem real_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .olt (Host.absf a) (broadcastInDim S ![] hb (constant S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  have hi' : Ideal.cmp .olt (max (a i) (-(a i))) (Ideal.ofBits .f32 0x7F800000#32) = 1#1 := hi
  rw [ofBits_inf_f32] at hi'
  exact real_of_abs_lt_top (a i) hi'

/-- The whole predicate read back, over arbitrary arrays: the nested `and` of the eighteen reductions is 1
    only if each reduction is 1, and each reduction is one `jnp.all(|a| < inf)`. -/
theorem fn_real [hF : Facts] (a0 : FVec Ideal S16384x512 .f32) (a1 : FVec Ideal S16384x1024 .f32) (a2 : FVec Ideal S16384x1024 .f32) (a3 : FVec Ideal S512x1024 .f32) (a4 : FVec Ideal S1024x1024 .f32) (a5 : FVec Ideal S1024 .f32) (a6 : FVec Ideal S512x1024 .f32) (a7 : FVec Ideal S1024x1024 .f32) (a8 : FVec Ideal S1024 .f32) (a9 : FVec Ideal S512x1024 .f32) (a10 : FVec Ideal S1024x1024 .f32) (a11 : FVec Ideal S1024 .f32) (a12 : FVec Ideal S512x1024 .f32) (a13 : FVec Ideal S1024x1024 .f32) (a14 : FVec Ideal S1024x1024 .f32) (a15 : FVec Ideal S1024 .f32) (a16 : FVec Ideal S1024x1 .f32) (a17 : FVec Ideal S1 .f32)
    (h : fn (F := Ideal) a0 a1 a2 a3 a4 a5 a6 a7 a8 a9 a10 a11 a12 a13 a14 a15 a16 a17 ValueIdx.ix0 = 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal)) := by
  dsimp only [fn, fn_part1, fn_part2, fn_part3, fn_part4, fn_part5] at h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all a0 _ _ _ h0,
    real_of_all a1 _ _ _ h1,
    real_of_all a2 _ _ _ h2,
    real_of_all a3 _ _ _ h3,
    real_of_all a4 _ _ _ h4,
    real_of_all a5 _ _ _ h5,
    real_of_all a6 _ _ _ h6,
    real_of_all a7 _ _ _ h7,
    real_of_all a8 _ _ _ h8,
    real_of_all a9 _ _ _ h9,
    real_of_all a10 _ _ _ h10,
    real_of_all a11 _ _ _ h11,
    real_of_all a12 _ _ _ h12,
    real_of_all a13 _ _ _ h13,
    real_of_all a14 _ _ _ h14,
    real_of_all a15 _ _ _ h15,
    real_of_all a16 _ _ _ h16,
    real_of_all a17 _ _ _ h17⟩

/-- The precondition of the idealized kernel, read back on a device: every entry of every argument array
    of the initial memory is a real number. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal))
      ∧ (∀ i, ∃ r : ℝ, m ((c.tc : Thread Cert.KernelIdeal.nD Cert.KernelIdeal.τ).loc Cert.KernelIdeal.main_arg16) i = (r : EReal))
      ∧ (∀ i, ∃ r : ℝ, m ((c.tc : Thread Cert.KernelIdeal.nD Cert.KernelIdeal.τ).loc Cert.KernelIdeal.main_arg17) i = (r : EReal)) :=
  fn_real (hF := Cert.Pre_finite_inputs.Gen.facts) _ _ _ _ _ _ _ _ _ _ _ _ _ _ _ _ _ _ (congrFun (h c) ValueIdx.ix0)

end Cert.PreReal

end
-- ==== Proof.LibConcat.lean ====
/-
  An entry of a concatenation is an entry of one of the pieces: any property that every entry of every piece has,
  every entry of the joined array has. In particular an array joined from four arrays of real numbers holds real
  numbers only.
-/
import Idealize.ShloMosaic.PureOps.ShapeOps
import Mathlib.Data.EReal.Basic

namespace Idealize.ShloMosaic

/-- Every entry of `concatenate t a xs h` is an entry of one of the pieces `xs`: a property of all the pieces'
    entries is a property of the joined array's entries. -/
theorem concatenate_forall {α : Type} (P : α → Prop) {t : Shape} (a : Fin t.rank) (xs : List ((s : Shape) × (s.Idx → α)))
    (h : Shape.Concatenates (xs.map (·.1)) t a) (hall : ∀ p ∈ xs, ∀ i, P (p.2 i)) (j : t.Idx) :
    P (concatenate t a xs h j) := by
  unfold concatenate
  exact hall _ (List.getElem_mem _) _

/-- Four arrays of real numbers joined along an axis: every entry of the result is a real number. -/
theorem concatenate4_real {t s0 s1 s2 s3 : Shape} (a : Fin t.rank) (y0 : s0.Idx → EReal) (y1 : s1.Idx → EReal)
    (y2 : s2.Idx → EReal) (y3 : s3.Idx → EReal)
    (h : Shape.Concatenates (([⟨s0, y0⟩, ⟨s1, y1⟩, ⟨s2, y2⟩, ⟨s3, y3⟩] : List ((s : Shape) × (s.Idx → EReal))).map (·.1)) t a)
    (h0 : ∀ i, ∃ r : ℝ, y0 i = (r : EReal)) (h1 : ∀ i, ∃ r : ℝ, y1 i = (r : EReal))
    (h2 : ∀ i, ∃ r : ℝ, y2 i = (r : EReal)) (h3 : ∀ i, ∃ r : ℝ, y3 i = (r : EReal)) (j : t.Idx) :
    ∃ r : ℝ, concatenate t a [⟨s0, y0⟩, ⟨s1, y1⟩, ⟨s2, y2⟩, ⟨s3, y3⟩] h j = (r : EReal) :=
  concatenate_forall (fun x => ∃ r : ℝ, x = (r : EReal)) a _ h
    (List.forall_mem_cons.2 ⟨h0, List.forall_mem_cons.2 ⟨h1, List.forall_mem_cons.2 ⟨h2, List.forall_mem_cons.2 ⟨h3,
      fun _ hp => absurd hp List.not_mem_nil⟩⟩⟩⟩) j

end Idealize.ShloMosaic
-- ==== Proof.HostSide.lean ====
/-
  What the region finds in the arrays the host operations computed before it, entry by entry, in terms of the
  step's arrays.

  The host joins the four gates' weights and biases, and splits each weight array `A` into a high half (the array
  rounded to the narrow format) and a low half (`A` less the high half, rounded again). On the extended reals the
  roundings are the identity, so a high half is the array itself and a low half is `A - A`, which vanishes wherever
  `A` is a real number: everywhere, under the precondition. The two biases pass through a reshape that adds a unit
  axis.
-/
import proofs.«176781_j17205638987779_2_alg».proof.Proof.KerArgs
import proofs.«176781_j17205638987779_2_alg».proof.Proof.KIFrame
import proofs.«176781_j17205638987779_2_alg».proof.Proof.PreReal
import proofs.«176781_j17205638987779_2_alg».proof.Proof.LibSplit
import proofs.«176781_j17205638987779_2_alg».proof.Proof.LibConcat
import Idealize.ShloMosaic.Lib.Pipeline.Value
import Idealize.ShloMosaic.Lib.ValueLayout
import Idealize.ShloMosaic.Lib.StableHlo.Run

noncomputable section

namespace Cert.KerSide

open Cert.KernelIdeal Cert.KernelIdeal.Gen Cert.KernelIdeal.Hand Idealize.ShloMosaic Idealize.ShloMosaic.TcCoe
  Idealize.ShloMosaic.ValueIdx Idealize.SL.Sem Cert.Lstm

variable (m : (ℓ : Loc nD τ sig) → Buf (Elt Ideal) ℓ) (c : Dev nD)

/-! ## The arrays as whole terms -/

/-- The high halves are the arrays themselves. -/
theorem V_v4 : (V m c main_v4 : S512x4096.Idx → EReal) = (kerArgs m c).W := by
  dsimp only [V, hostOps0]; after_results_simp; rfl
theorem V_v8 : (V m c main_v8 : S1024x4096.Idx → EReal) = (kerArgs m c).U := by
  dsimp only [V, hostOps0]; after_results_simp; rfl
theorem V_v12 : (V m c main_v12 : S1024x1024.Idx → EReal) = (kerArgs m c).V := by
  dsimp only [V, hostOps0]; after_results_simp; rfl
theorem V_v16 : (V m c main_v16 : S1024x1.Idx → EReal) = (kerArgs m c).Wout := by
  dsimp only [V, hostOps0]; after_results_simp; rfl

/-- The low halves are the arrays less themselves. -/
theorem V_v7 : (V m c main_v7 : S512x4096.Idx → EReal) = fun i => (kerArgs m c).W i - (kerArgs m c).W i := by
  dsimp only [V, hostOps0]; after_results_simp; rfl
theorem V_v11 : (V m c main_v11 : S1024x4096.Idx → EReal) = fun i => (kerArgs m c).U i - (kerArgs m c).U i := by
  dsimp only [V, hostOps0]; after_results_simp; rfl
theorem V_v15 : (V m c main_v15 : S1024x1024.Idx → EReal) = fun i => (kerArgs m c).V i - (kerArgs m c).V i := by
  dsimp only [V, hostOps0]; after_results_simp; rfl
theorem V_v19 : (V m c main_v19 : S1024x1.Idx → EReal) = fun i => (kerArgs m c).Wout i - (kerArgs m c).Wout i := by
  dsimp only [V, hostOps0]; after_results_simp; rfl

/-- The biases with a unit axis in front. -/
theorem V_v3 : (V m c main_v3 : S1x4096.Idx → EReal) = shapeCast S1x4096 (kerArgs m c).b shapeCasts_S4096_S1x4096 := by
  dsimp only [V, hostOps0]; after_results_simp; rfl
theorem V_v20 : (V m c main_v20 : S1x1.Idx → EReal) = shapeCast S1x1 (kerArgs m c).bout shapeCasts_S1_S1x1 := by
  dsimp only [V, hostOps0]; after_results_simp; rfl

/-! ## Under the precondition every entry of the step's arrays is a real number -/

theorem args_x_real (hpre : Cert.Pre_KernelIdeal (hPre_finite_inputs := Cert.Pre_finite_inputs.Gen.facts) m) :
    ∀ i, ∃ s : ℝ, (kerArgs m c).x i = (s : EReal) := (Cert.PreReal.args_real m hpre c).1
theorem args_h_real (hpre : Cert.Pre_KernelIdeal (hPre_finite_inputs := Cert.Pre_finite_inputs.Gen.facts) m) :
    ∀ i, ∃ s : ℝ, (kerArgs m c).h i = (s : EReal) := (Cert.PreReal.args_real m hpre c).2.1
theorem args_c_real (hpre : Cert.Pre_KernelIdeal (hPre_finite_inputs := Cert.Pre_finite_inputs.Gen.facts) m) :
    ∀ i, ∃ s : ℝ, (kerArgs m c).c i = (s : EReal) := (Cert.PreReal.args_real m hpre c).2.2.1

/-- Four gates' input weights side by side, all real, are real; likewise the hidden weights. -/
theorem fuseW_real (w0 w1 w2 w3 : FVec Ideal ⟨2, ![512, 1024]⟩ .f32) (h0 : ∀ i, ∃ r : ℝ, w0 i = (r : EReal))
    (h1 : ∀ i, ∃ r : ℝ, w1 i = (r : EReal)) (h2 : ∀ i, ∃ r : ℝ, w2 i = (r : EReal)) (h3 : ∀ i, ∃ r : ℝ, w3 i = (r : EReal))
    (i : (⟨2, ![512, 4096]⟩ : Shape).Idx) : ∃ r : ℝ, fuseW w0 w1 w2 w3 i = (r : EReal) :=
  concatenate4_real 1 w0 w1 w2 w3 _ h0 h1 h2 h3 i
theorem fuseU_real (w0 w1 w2 w3 : FVec Ideal ⟨2, ![1024, 1024]⟩ .f32) (h0 : ∀ i, ∃ r : ℝ, w0 i = (r : EReal))
    (h1 : ∀ i, ∃ r : ℝ, w1 i = (r : EReal)) (h2 : ∀ i, ∃ r : ℝ, w2 i = (r : EReal)) (h3 : ∀ i, ∃ r : ℝ, w3 i = (r : EReal))
    (i : (⟨2, ![1024, 4096]⟩ : Shape).Idx) : ∃ r : ℝ, fuseU w0 w1 w2 w3 i = (r : EReal) :=
  concatenate4_real 1 w0 w1 w2 w3 _ h0 h1 h2 h3 i

/-- The joined input weights: arguments 3, 6, 9 and 12 side by side. -/
theorem args_W_real (hpre : Cert.Pre_KernelIdeal (hPre_finite_inputs := Cert.Pre_finite_inputs.Gen.facts) m) :
    ∀ i, ∃ s : ℝ, (kerArgs m c).W i = (s : EReal) :=
  have h := Cert.PreReal.args_real m hpre c
  fun i => fuseW_real _ _ _ _ h.2.2.2.1 h.2.2.2.2.2.2.1 h.2.2.2.2.2.2.2.2.2.1 h.2.2.2.2.2.2.2.2.2.2.2.2.1 i
/-- The joined hidden weights: arguments 4, 7, 10 and 13 side by side. -/
theorem args_U_real (hpre : Cert.Pre_KernelIdeal (hPre_finite_inputs := Cert.Pre_finite_inputs.Gen.facts) m) :
    ∀ i, ∃ s : ℝ, (kerArgs m c).U i = (s : EReal) :=
  have h := Cert.PreReal.args_real m hpre c
  fun i => fuseU_real _ _ _ _ h.2.2.2.2.1 h.2.2.2.2.2.2.2.1 h.2.2.2.2.2.2.2.2.2.2.1 h.2.2.2.2.2.2.2.2.2.2.2.2.2.1 i
theorem args_V_real (hpre : Cert.Pre_KernelIdeal (hPre_finite_inputs := Cert.Pre_finite_inputs.Gen.facts) m) :
    ∀ i, ∃ s : ℝ, (kerArgs m c).V i = (s : EReal) :=
  (Cert.PreReal.args_real m hpre c).2.2.2.2.2.2.2.2.2.2.2.2.2.2.1
theorem args_Wout_real (hpre : Cert.Pre_KernelIdeal (hPre_finite_inputs := Cert.Pre_finite_inputs.Gen.facts) m) :
    ∀ i, ∃ s : ℝ, (kerArgs m c).Wout i = (s : EReal) :=
  (Cert.PreReal.args_real m hpre c).2.2.2.2.2.2.2.2.2.2.2.2.2.2.2.2.1

/-! ## The arrays, entry by entry -/

theorem host_x : ∀ i : S16384x512.Idx, V m c main_arg0 i = (kerArgs m c).x i := fun i => congrFun (V_main_arg0 m c) i
theorem host_h : ∀ i : S16384x1024.Idx, V m c main_arg1 i = (kerArgs m c).h i := fun i => congrFun (V_main_arg1 m c) i
theorem host_c : ∀ i : S16384x1024.Idx, V m c main_arg2 i = (kerArgs m c).c i := fun i => congrFun (V_main_arg2 m c) i

theorem host_W : ∀ (k : Fin 512) (j : Fin 4096), V m c main_v4 (ix2 k j) = (kerArgs m c).W (ix2 k j) :=
  fun k j => congrFun (V_v4 m c) (ix2 k j)
theorem host_Wlo (hpre : Cert.Pre_KernelIdeal (hPre_finite_inputs := Cert.Pre_finite_inputs.Gen.facts) m) :
    ∀ (k : Fin 512) (j : Fin 4096), V m c main_v7 (ix2 k j) = (0 : EReal) :=
  fun k j => (congrFun (V_v7 m c) (ix2 k j)).trans (EReal.sub_self_of_real (args_W_real m c hpre _))

theorem host_U : ∀ (k : Fin 1024) (j : Fin 4096), V m c main_v8 (ix2 k j) = (kerArgs m c).U (ix2 k j) :=
  fun k j => congrFun (V_v8 m c) (ix2 k j)
theorem host_Ulo (hpre : Cert.Pre_KernelIdeal (hPre_finite_inputs := Cert.Pre_finite_inputs.Gen.facts) m) :
    ∀ (k : Fin 1024) (j : Fin 4096), V m c main_v11 (ix2 k j) = (0 : EReal) :=
  fun k j => (congrFun (V_v11 m c) (ix2 k j)).trans (EReal.sub_self_of_real (args_U_real m c hpre _))

theorem host_b : ∀ (j : Fin 4096), V m c main_v3 (ix2 (0 : Fin 1) j) = (kerArgs m c).b (ix1 j) :=
  fun j => (congrFun (V_v3 m c) (ix2 (0 : Fin 1) j)).trans (shapeCast_a_1a_apply _ _ 0 j)

theorem host_V : ∀ (k q : Fin 1024), V m c main_v12 (ix2 k q) = (kerArgs m c).V (ix2 k q) :=
  fun k q => congrFun (V_v12 m c) (ix2 k q)
theorem host_Vlo (hpre : Cert.Pre_KernelIdeal (hPre_finite_inputs := Cert.Pre_finite_inputs.Gen.facts) m) :
    ∀ (k q : Fin 1024), V m c main_v15 (ix2 k q) = (0 : EReal) :=
  fun k q => (congrFun (V_v15 m c) (ix2 k q)).trans (EReal.sub_self_of_real (args_V_real m c hpre _))

theorem host_O : ∀ (k : Fin 1024) (q : Fin 1), V m c main_v16 (ix2 k q) = (kerArgs m c).Wout (ix2 k q) :=
  fun k q => congrFun (V_v16 m c) (ix2 k q)
theorem host_Olo (hpre : Cert.Pre_KernelIdeal (hPre_finite_inputs := Cert.Pre_finite_inputs.Gen.facts) m) :
    ∀ (k : Fin 1024) (q : Fin 1), V m c main_v19 (ix2 k q) = (0 : EReal) :=
  fun k q => (congrFun (V_v19 m c) (ix2 k q)).trans (EReal.sub_self_of_real (args_Wout_real m c hpre _))

theorem host_bo : V m c main_v20 (ix2 (0 : Fin 1) (0 : Fin 1)) = (kerArgs m c).bout (ix1 (0 : Fin 1)) :=
  (congrFun (V_v20 m c) (ix2 (0 : Fin 1) (0 : Fin 1))).trans (shapeCast_a_1a_apply _ _ 0 0)

end Cert.KerSide

end
-- ==== Proof.BlockRead.lean ====
/-
  The pipeline's input blocks read at an index: each staged window's block at a point of the grid, entry by entry,
  as an entry of the array the region finds. The three row-blocked windows read rows 256·t … 256·t + 255 of their
  arrays; the ten whole windows read their arrays unchanged at every point.
-/
import proofs.«176781_j17205638987779_2_alg».proof.Proof.KerArgs
import Idealize.ShloMosaic.Lib.Pipeline.Value
import Idealize.ShloMosaic.Lib.ValueIdx

noncomputable section

namespace Cert.KerSide

open Cert.KernelIdeal Cert.KernelIdeal.Gen Cert.KernelIdeal.Hand Idealize.ShloMosaic Idealize.ShloMosaic.TcCoe
open Idealize.ShloMosaic.ValueIdx Idealize.SL.Sem Cert.Lstm

variable (m : (ℓ : Loc nD τ sig) → Buf (Elt Ideal) ℓ)

/-- Window 0's index map, decided over the grid: block row `t`, block column 0. -/
theorem idx0 : ∀ t : Fin cfg0.N, win0_0.index t (0 : Fin 2) = t.val ∧ win0_0.index t (1 : Fin 2) = 0 :=
  (by decide +kernel : ∀ t : Fin grid0.N, _)

/-- Window 0's block at point `t` is rows `256·t … 256·t + 255` of `main_arg0`, every column. -/
theorem blk0 (c : Dev nD) (t : Fin cfg0.N) : ∀ (r : Fin 256) (k : Fin 512),
    (iblk m c 0 t : Vec Ideal S256x512 .f32) (ix2 r k) = V m c main_arg0 (ix2 (row (pt t) r) k) := by
  intro r k
  obtain ⟨e0, e1⟩ := idx0 t
  show V m c main_arg0 (((cfg0.win 0).blk t).view.emb (ix2 r k)) = V m c main_arg0 (ix2 (row (pt t) r) k)
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 512 + 1 * k.val = k.val; omega

/-- Window 1's index map, decided over the grid: block row `t`, block column 0. -/
theorem idx1 : ∀ t : Fin cfg0.N, win0_1.index t (0 : Fin 2) = t.val ∧ win0_1.index t (1 : Fin 2) = 0 :=
  (by decide +kernel : ∀ t : Fin grid0.N, _)

/-- Window 1's block at point `t` is rows `256·t … 256·t + 255` of `main_arg1`, every column. -/
theorem blk1 (c : Dev nD) (t : Fin cfg0.N) : ∀ (r : Fin 256) (k : Fin 1024),
    (iblk m c 1 t : Vec Ideal S256x1024 .f32) (ix2 r k) = V m c main_arg1 (ix2 (row (pt t) r) k) := by
  intro r k
  obtain ⟨e0, e1⟩ := idx1 t
  show V m c main_arg1 (((cfg0.win 1).blk t).view.emb (ix2 r k)) = V m c main_arg1 (ix2 (row (pt t) r) k)
  refine congrArg (V m c main_arg1) (funext fun a => Fin.ext ?_)
  match a with
  | ⟨0, _⟩ => show win0_1.index t (0 : Fin 2) * 256 + 1 * r.val = 256 * t.val + r.val; omega
  | ⟨1, _⟩ => show win0_1.index t (1 : Fin 2) * 1024 + 1 * k.val = k.val; omega

/-- Window 2's index map, decided over the grid: block row `t`, block column 0. -/
theorem idx2 : ∀ t : Fin cfg0.N, win0_2.index t (0 : Fin 2) = t.val ∧ win0_2.index t (1 : Fin 2) = 0 :=
  (by decide +kernel : ∀ t : Fin grid0.N, _)

/-- Window 2's block at point `t` is rows `256·t … 256·t + 255` of `main_arg2`, every column. -/
theorem blk2 (c : Dev nD) (t : Fin cfg0.N) : ∀ (r : Fin 256) (k : Fin 1024),
    (iblk m c 2 t : Vec Ideal S256x1024 .f32) (ix2 r k) = V m c main_arg2 (ix2 (row (pt t) r) k) := by
  intro r k
  obtain ⟨e0, e1⟩ := idx2 t
  show V m c main_arg2 (((cfg0.win 2).blk t).view.emb (ix2 r k)) = V m c main_arg2 (ix2 (row (pt t) r) k)
  refine congrArg (V m c main_arg2) (funext fun a => Fin.ext ?_)
  match a with
  | ⟨0, _⟩ => show win0_2.index t (0 : Fin 2) * 256 + 1 * r.val = 256 * t.val + r.val; omega
  | ⟨1, _⟩ => show win0_2.index t (1 : Fin 2) * 1024 + 1 * k.val = k.val; omega

/-- Window 3's index map, decided over the grid: block (0, 0) at every point. -/
theorem idx3 : ∀ t : Fin cfg0.N, win0_3.index t (0 : Fin 2) = 0 ∧ win0_3.index t (1 : Fin 2) = 0 :=
  (by decide +kernel : ∀ t : Fin grid0.N, _)

/-- Window 3's block is the whole of `main_v4` at every point. -/
theorem blk3 (c : Dev nD) (t : Fin cfg0.N) : ∀ (p : Fin 512) (q : Fin 4096),
    (iblk m c 3 t : Vec Ideal S512x4096 .bf16) (ix2 p q) = V m c main_v4 (ix2 p q) := by
  intro p q
  obtain ⟨e0, e1⟩ := idx3 t
  show V m c main_v4 (((cfg0.win 3).blk t).view.emb (ix2 p q)) = V m c main_v4 (ix2 p q)
  refine congrArg (V m c main_v4) (funext fun a => Fin.ext ?_)
  match a with
  | ⟨0, _⟩ => show win0_3.index t (0 : Fin 2) * 512 + 1 * p.val = p.val; omega
  | ⟨1, _⟩ => show win0_3.index t (1 : Fin 2) * 4096 + 1 * q.val = q.val; omega

/-- Window 4's index map, decided over the grid: block (0, 0) at every point. -/
theorem idx4 : ∀ t : Fin cfg0.N, win0_4.index t (0 : Fin 2) = 0 ∧ win0_4.index t (1 : Fin 2) = 0 :=
  (by decide +kernel : ∀ t : Fin grid0.N, _)

/-- Window 4's block is the whole of `main_v7` at every point. -/
theorem blk4 (c : Dev nD) (t : Fin cfg0.N) : ∀ (p : Fin 512) (q : Fin 4096),
    (iblk m c 4 t : Vec Ideal S512x4096 .bf16) (ix2 p q) = V m c main_v7 (ix2 p q) := by
  intro p q
  obtain ⟨e0, e1⟩ := idx4 t
  show V m c main_v7 (((cfg0.win 4).blk t).view.emb (ix2 p q)) = V m c main_v7 (ix2 p q)
  refine congrArg (V m c main_v7) (funext fun a => Fin.ext ?_)
  match a with
  | ⟨0, _⟩ => show win0_4.index t (0 : Fin 2) * 512 + 1 * p.val = p.val; omega
  | ⟨1, _⟩ => show win0_4.index t (1 : Fin 2) * 4096 + 1 * q.val = q.val; omega

/-- Window 5's index map, decided over the grid: block (0, 0) at every point. -/
theorem idx5 : ∀ t : Fin cfg0.N, win0_5.index t (0 : Fin 2) = 0 ∧ win0_5.index t (1 : Fin 2) = 0 :=
  (by decide +kernel : ∀ t : Fin grid0.N, _)

/-- Window 5's block is the whole of `main_v8` at every point. -/
theorem blk5 (c : Dev nD) (t : Fin cfg0.N) : ∀ (p : Fin 1024) (q : Fin 4096),
    (iblk m c 5 t : Vec Ideal S1024x4096 .bf16) (ix2 p q) = V m c main_v8 (ix2 p q) := by
  intro p q
  obtain ⟨e0, e1⟩ := idx5 t
  show V m c main_v8 (((cfg0.win 5).blk t).view.emb (ix2 p q)) = V m c main_v8 (ix2 p q)
  refine congrArg (V m c main_v8) (funext fun a => Fin.ext ?_)
  match a with
  | ⟨0, _⟩ => show win0_5.index t (0 : Fin 2) * 1024 + 1 * p.val = p.val; omega
  | ⟨1, _⟩ => show win0_5.index t (1 : Fin 2) * 4096 + 1 * q.val = q.val; omega

/-- Window 6's index map, decided over the grid: block (0, 0) at every point. -/
theorem idx6 : ∀ t : Fin cfg0.N, win0_6.index t (0 : Fin 2) = 0 ∧ win0_6.index t (1 : Fin 2) = 0 :=
  (by decide +kernel : ∀ t : Fin grid0.N, _)

/-- Window 6's block is the whole of `main_v11` at every point. -/
theorem blk6 (c : Dev nD) (t : Fin cfg0.N) : ∀ (p : Fin 1024) (q : Fin 4096),
    (iblk m c 6 t : Vec Ideal S1024x4096 .bf16) (ix2 p q) = V m c main_v11 (ix2 p q) := by
  intro p q
  obtain ⟨e0, e1⟩ := idx6 t
  show V m c main_v11 (((cfg0.win 6).blk t).view.emb (ix2 p q)) = V m c main_v11 (ix2 p q)
  refine congrArg (V m c main_v11) (funext fun a => Fin.ext ?_)
  match a with
  | ⟨0, _⟩ => show win0_6.index t (0 : Fin 2) * 1024 + 1 * p.val = p.val; omega
  | ⟨1, _⟩ => show win0_6.index t (1 : Fin 2) * 4096 + 1 * q.val = q.val; omega

/-- Window 7's index map, decided over the grid: block (0, 0) at every point. -/
theorem idx7 : ∀ t : Fin cfg0.N, win0_7.index t (0 : Fin 2) = 0 ∧ win0_7.index t (1 : Fin 2) = 0 :=
  (by decide +kernel : ∀ t : Fin grid0.N, _)

/-- Window 7's block is the whole of `main_v3` at every point. -/
theorem blk7 (c : Dev nD) (t : Fin cfg0.N) : ∀ (p : Fin 1) (q : Fin 4096),
    (iblk m c 7 t : Vec Ideal S1x4096 .f32) (ix2 p q) = V m c main_v3 (ix2 p q) := by
  intro p q
  obtain ⟨e0, e1⟩ := idx7 t
  show V m c main_v3 (((cfg0.win 7).blk t).view.emb (ix2 p q)) = V m c main_v3 (ix2 p q)
  refine congrArg (V m c main_v3) (funext fun a => Fin.ext ?_)
  match a with
  | ⟨0, _⟩ => show win0_7.index t (0 : Fin 2) * 1 + 1 * p.val = p.val; omega
  | ⟨1, _⟩ => show win0_7.index t (1 : Fin 2) * 4096 + 1 * q.val = q.val; omega

/-- Window 8's index map, decided over the grid: block (0, 0) at every point. -/
theorem idx8 : ∀ t : Fin cfg0.N, win0_8.index t (0 : Fin 2) = 0 ∧ win0_8.index t (1 : Fin 2) = 0 :=
  (by decide +kernel : ∀ t : Fin grid0.N, _)

/-- Window 8's block is the whole of `main_v12` at every point. -/
theorem blk8 (c : Dev nD) (t : Fin cfg0.N) : ∀ (p : Fin 1024) (q : Fin 1024),
    (iblk m c 8 t : Vec Ideal S1024x1024 .bf16) (ix2 p q) = V m c main_v12 (ix2 p q) := by
  intro p q
  obtain ⟨e0, e1⟩ := idx8 t
  show V m c main_v12 (((cfg0.win 8).blk t).view.emb (ix2 p q)) = V m c main_v12 (ix2 p q)
  refine congrArg (V m c main_v12) (funext fun a => Fin.ext ?_)
  match a with
  | ⟨0, _⟩ => show win0_8.index t (0 : Fin 2) * 1024 + 1 * p.val = p.val; omega
  | ⟨1, _⟩ => show win0_8.index t (1 : Fin 2) * 1024 + 1 * q.val = q.val; omega

/-- Window 9's index map, decided over the grid: block (0, 0) at every point. -/
theorem idx9 : ∀ t : Fin cfg0.N, win0_9.index t (0 : Fin 2) = 0 ∧ win0_9.index t (1 : Fin 2) = 0 :=
  (by decide +kernel : ∀ t : Fin grid0.N, _)

/-- Window 9's block is the whole of `main_v15` at every point. -/
theorem blk9 (c : Dev nD) (t : Fin cfg0.N) : ∀ (p : Fin 1024) (q : Fin 1024),
    (iblk m c 9 t : Vec Ideal S1024x1024 .bf16) (ix2 p q) = V m c main_v15 (ix2 p q) := by
  intro p q
  obtain ⟨e0, e1⟩ := idx9 t
  show V m c main_v15 (((cfg0.win 9).blk t).view.emb (ix2 p q)) = V m c main_v15 (ix2 p q)
  refine congrArg (V m c main_v15) (funext fun a => Fin.ext ?_)
  match a with
  | ⟨0, _⟩ => show win0_9.index t (0 : Fin 2) * 1024 + 1 * p.val = p.val; omega
  | ⟨1, _⟩ => show win0_9.index t (1 : Fin 2) * 1024 + 1 * q.val = q.val; omega

/-- Window 10's index map, decided over the grid: block (0, 0) at every point. -/
theorem idx10 : ∀ t : Fin cfg0.N, win0_10.index t (0 : Fin 2) = 0 ∧ win0_10.index t (1 : Fin 2) = 0 :=
  (by decide +kernel : ∀ t : Fin grid0.N, _)

/-- Window 10's block is the whole of `main_v16` at every point. -/
theorem blk10 (c : Dev nD) (t : Fin cfg0.N) : ∀ (p : Fin 1024) (q : Fin 1),
    (iblk m c 10 t : Vec Ideal S1024x1 .bf16) (ix2 p q) = V m c main_v16 (ix2 p q) := by
  intro p q
  obtain ⟨e0, e1⟩ := idx10 t
  show V m c main_v16 (((cfg0.win 10).blk t).view.emb (ix2 p q)) = V m c main_v16 (ix2 p q)
  refine congrArg (V m c main_v16) (funext fun a => Fin.ext ?_)
  match a with
  | ⟨0, _⟩ => show win0_10.index t (0 : Fin 2) * 1024 + 1 * p.val = p.val; omega
  | ⟨1, _⟩ => show win0_10.index t (1 : Fin 2) * 1 + 1 * q.val = q.val; omega

/-- Window 11's index map, decided over the grid: block (0, 0) at every point. -/
theorem idx11 : ∀ t : Fin cfg0.N, win0_11.index t (0 : Fin 2) = 0 ∧ win0_11.index t (1 : Fin 2) = 0 :=
  (by decide +kernel : ∀ t : Fin grid0.N, _)

/-- Window 11's block is the whole of `main_v19` at every point. -/
theorem blk11 (c : Dev nD) (t : Fin cfg0.N) : ∀ (p : Fin 1024) (q : Fin 1),
    (iblk m c 11 t : Vec Ideal S1024x1 .bf16) (ix2 p q) = V m c main_v19 (ix2 p q) := by
  intro p q
  obtain ⟨e0, e1⟩ := idx11 t
  show V m c main_v19 (((cfg0.win 11).blk t).view.emb (ix2 p q)) = V m c main_v19 (ix2 p q)
  refine congrArg (V m c main_v19) (funext fun a => Fin.ext ?_)
  match a with
  | ⟨0, _⟩ => show win0_11.index t (0 : Fin 2) * 1024 + 1 * p.val = p.val; omega
  | ⟨1, _⟩ => show win0_11.index t (1 : Fin 2) * 1 + 1 * q.val = q.val; omega

/-- Window 12's index map, decided over the grid: block (0, 0) at every point. -/
theorem idx12 : ∀ t : Fin cfg0.N, win0_12.index t (0 : Fin 2) = 0 ∧ win0_12.index t (1 : Fin 2) = 0 :=
  (by decide +kernel : ∀ t : Fin grid0.N, _)

/-- Window 12's block is the whole of `main_v20` at every point. -/
theorem blk12 (c : Dev nD) (t : Fin cfg0.N) : ∀ (p : Fin 1) (q : Fin 1),
    (iblk m c 12 t : Vec Ideal S1x1 .f32) (ix2 p q) = V m c main_v20 (ix2 p q) := by
  intro p q
  obtain ⟨e0, e1⟩ := idx12 t
  show V m c main_v20 (((cfg0.win 12).blk t).view.emb (ix2 p q)) = V m c main_v20 (ix2 p q)
  refine congrArg (V m c main_v20) (funext fun a => Fin.ext ?_)
  match a with
  | ⟨0, _⟩ => show win0_12.index t (0 : Fin 2) * 1 + 1 * p.val = p.val; omega
  | ⟨1, _⟩ => show win0_12.index t (1 : Fin 2) * 1 + 1 * q.val = q.val; omega

end Cert.KerSide

end
-- ==== Proof.KerFinal.lean ====
/- From the blocks to the whole arrays: the three result arrays of the kernel's program after its run, given what the
   body leaves in each output buffer at each point of the grid. Point t writes back rows 256·t … 256·t + 255, the 64
   points' blocks tile the 16384 rows, so each array ends holding the step's result entry by entry; the argument arrays
   end as launched. -/
import proofs.«176781_j17205638987779_2_alg».proof.Proof.KerArgs
import proofs.«176781_j17205638987779_2_alg».proof.Proof.KIFrame
import Idealize.ShloMosaic.Lib.Pipeline.Value

noncomputable section

namespace Cert.KerSide

open Cert.KernelIdeal Cert.KernelIdeal.Gen Cert.KernelIdeal.Hand Idealize.ShloMosaic Idealize.ShloMosaic.TcCoe Idealize.ShloMosaic.ValueIdx Idealize.SL.Sem Cert.Lstm
open Idealize.ShloMosaic.Pipeline (Dat)

variable (m : (ℓ : Loc nD τ sig) → Buf (Elt Ideal) ℓ) (ρ : Dev nD → PrngReg)

/-! ## Output window 13: the read-out -/

/-- The window's index map, decided over the grid: point `t` works on block `(t, 0)`. -/
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- What point `t` writes back is block `t` of the whole result: the window is uncut, so the block written is what
    the body leaves, and entry `(r, q)` of block `(t, 0)` is entry `(256·t + r, q)` of the array. -/
theorem flushed13_eq (c : Dev nD) (A : Args)
    (hafter : ∀ (t : Fin cfg0.N) (r : Fin 256) (q : Fin 1), ((dats m 0 c).after 13 t : Vec Ideal S256x1 .f32) (ix2 r q) = outNew A (row (pt t) r) q)
    (t : Fin cfg0.N) :
    (dats m 0 c).flushed 13 t = ((cfg0.win 13).blk t).view.read (Elt Ideal) (Gout A) := by
  show (cfg0.win 13).cut (grid0.coords t) ((dats m 0 c).after 13 t) = _
  funext j
  obtain ⟨r, q, rfl⟩ : ∃ (r : Fin 256) (q : Fin 1), j = ix2 r q := ⟨_, _, eq_ix2 j⟩
  show ((dats m 0 c).after 13 t : Vec Ideal S256x1 .f32) (ix2 r q) = Gout A (((cfg0.win 13).blk t).view.emb (ix2 r q))
  rw [hafter t r q]
  obtain ⟨e0, e1⟩ := idx13 t
  have hemb : ((cfg0.win 13).blk t).view.emb (ix2 r q) = ix2 (row (pt t) r) q := by
    funext a; apply Fin.ext
    match a with
    | ⟨0, _⟩ => show win0_13.index t (0 : Fin 2) * 256 + 1 * r.val = 256 * t.val + r.val; omega
    | ⟨1, _⟩ => show win0_13.index t (1 : Fin 2) * 1 + 1 * q.val = q.val; omega
  rw [hemb, Gout_apply]

/-- An index of the array is in point `t`'s block iff each coordinate is in the block's range on its axis. -/
theorem mem_blk13 (t : Fin cfg0.N) (i : S16384x1.Idx) :
    i ∈ ((cfg0.win 13).blk t).view.set ↔ ∀ a : Fin 2, win0_13.index t a * S256x1.size a ≤ (i a).val ∧ (i a).val < win0_13.index t a * S256x1.size a + S256x1.size a := by
  show i ∈ ((View.whole main_v21_0).slice (win0_13.rect t)).set ↔ _
  rw [View.set_slice_whole, Rect.mem_set_unit]
  exact Iff.rfl

/-- Every index of the array is in some point's block: row `p` is in block `p / 256`. -/
theorem cover13 (i : S16384x1.Idx) : ∃ t : Fin cfg0.N, (cfg0.win 13).flush t = true ∧ i ∈ ((cfg0.win 13).blk t).view.set := by
  have hi0 : (i 0).val < 16384 := (i 0).isLt
  have hi1 : (i 1).val < 1 := (i 1).isLt
  obtain ⟨t, ht⟩ : ∃ t : Fin cfg0.N, t.val = (i 0).val / 256 := ⟨Fin.cast N_0.symm ⟨(i 0).val / 256, by omega⟩, rfl⟩
  obtain ⟨e0, e1⟩ := idx13 t
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1 ≤ (i 1).val ∧ (i 1).val < win0_13.index t (1 : Fin 2) * 1 + 1; omega

/-- So the array ends holding the whole result, given what the body leaves at each point. -/
theorem final13 (c : Dev nD) (A : Args)
    (hafter : ∀ (t : Fin cfg0.N) (r : Fin 256) (q : Fin 1), ((dats m 0 c).after 13 t : Vec Ideal S256x1 .f32) (ix2 r q) = outNew A (row (pt t) r) q) :
    (dats m 0 c).arrAt 13 cfg0.N = Gout A :=
  (dats m 0 c).arrAt_eq_of_cover 13 (Gout A) (fun t _ => flushed13_eq m c A hafter t) cover13

/-! ## Output window 14: the new hidden state -/

/-- The window's index map, decided over the grid: point `t` works on block `(t, 0)`. -/
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- What point `t` writes back is block `t` of the whole result: the window is uncut, so the block written is what
    the body leaves, and entry `(r, q)` of block `(t, 0)` is entry `(256·t + r, q)` of the array. -/
theorem flushed14_eq (c : Dev nD) (A : Args)
    (hafter : ∀ (t : Fin cfg0.N) (r : Fin 256) (q : Fin 1024), ((dats m 0 c).after 14 t : Vec Ideal S256x1024 .f32) (ix2 r q) = hNew A (row (pt t) r) q)
    (t : Fin cfg0.N) :
    (dats m 0 c).flushed 14 t = ((cfg0.win 14).blk t).view.read (Elt Ideal) (Gh A) := by
  show (cfg0.win 14).cut (grid0.coords t) ((dats m 0 c).after 14 t) = _
  funext j
  obtain ⟨r, q, rfl⟩ : ∃ (r : Fin 256) (q : Fin 1024), j = ix2 r q := ⟨_, _, eq_ix2 j⟩
  show ((dats m 0 c).after 14 t : Vec Ideal S256x1024 .f32) (ix2 r q) = Gh A (((cfg0.win 14).blk t).view.emb (ix2 r q))
  rw [hafter t r q]
  obtain ⟨e0, e1⟩ := idx14 t
  have hemb : ((cfg0.win 14).blk t).view.emb (ix2 r q) = ix2 (row (pt t) r) q := by
    funext a; apply Fin.ext
    match a with
    | ⟨0, _⟩ => show win0_14.index t (0 : Fin 2) * 256 + 1 * r.val = 256 * t.val + r.val; omega
    | ⟨1, _⟩ => show win0_14.index t (1 : Fin 2) * 1024 + 1 * q.val = q.val; omega
  rw [hemb, Gh_apply]

/-- An index of the array is in point `t`'s block iff each coordinate is in the block's range on its axis. -/
theorem mem_blk14 (t : Fin cfg0.N) (i : S16384x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v21_1).slice (win0_14.rect t)).set ↔ _
  rw [View.set_slice_whole, Rect.mem_set_unit]
  exact Iff.rfl

/-- Every index of the array is in some point's block: row `p` is in block `p / 256`. -/
theorem cover14 (i : S16384x1024.Idx) : ∃ t : Fin cfg0.N, (cfg0.win 14).flush t = true ∧ i ∈ ((cfg0.win 14).blk t).view.set := by
  have hi0 : (i 0).val < 16384 := (i 0).isLt
  have hi1 : (i 1).val < 1024 := (i 1).isLt
  obtain ⟨t, ht⟩ : ∃ t : Fin cfg0.N, t.val = (i 0).val / 256 := ⟨Fin.cast N_0.symm ⟨(i 0).val / 256, by omega⟩, rfl⟩
  obtain ⟨e0, e1⟩ := idx14 t
  refine ⟨t, flush0_14 t, ?_⟩
  rw [mem_blk14]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

/-- So the array ends holding the whole result, given what the body leaves at each point. -/
theorem final14 (c : Dev nD) (A : Args)
    (hafter : ∀ (t : Fin cfg0.N) (r : Fin 256) (q : Fin 1024), ((dats m 0 c).after 14 t : Vec Ideal S256x1024 .f32) (ix2 r q) = hNew A (row (pt t) r) q) :
    (dats m 0 c).arrAt 14 cfg0.N = Gh A :=
  (dats m 0 c).arrAt_eq_of_cover 14 (Gh A) (fun t _ => flushed14_eq m c A hafter t) cover14

/-! ## Output window 15: the new cell state -/

/-- The window's index map, decided over the grid: point `t` works on block `(t, 0)`. -/
theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-- What point `t` writes back is block `t` of the whole result: the window is uncut, so the block written is what
    the body leaves, and entry `(r, q)` of block `(t, 0)` is entry `(256·t + r, q)` of the array. -/
theorem flushed15_eq (c : Dev nD) (A : Args)
    (hafter : ∀ (t : Fin cfg0.N) (r : Fin 256) (q : Fin 1024), ((dats m 0 c).after 15 t : Vec Ideal S256x1024 .f32) (ix2 r q) = cNew A (row (pt t) r) q)
    (t : Fin cfg0.N) :
    (dats m 0 c).flushed 15 t = ((cfg0.win 15).blk t).view.read (Elt Ideal) (Gc A) := by
  show (cfg0.win 15).cut (grid0.coords t) ((dats m 0 c).after 15 t) = _
  funext j
  obtain ⟨r, q, rfl⟩ : ∃ (r : Fin 256) (q : Fin 1024), j = ix2 r q := ⟨_, _, eq_ix2 j⟩
  show ((dats m 0 c).after 15 t : Vec Ideal S256x1024 .f32) (ix2 r q) = Gc A (((cfg0.win 15).blk t).view.emb (ix2 r q))
  rw [hafter t r q]
  obtain ⟨e0, e1⟩ := idx15 t
  have hemb : ((cfg0.win 15).blk t).view.emb (ix2 r q) = ix2 (row (pt t) r) q := by
    funext a; apply Fin.ext
    match a with
    | ⟨0, _⟩ => show win0_15.index t (0 : Fin 2) * 256 + 1 * r.val = 256 * t.val + r.val; omega
    | ⟨1, _⟩ => show win0_15.index t (1 : Fin 2) * 1024 + 1 * q.val = q.val; omega
  rw [hemb, Gc_apply]

/-- An index of the array is in point `t`'s block iff each coordinate is in the block's range on its axis. -/
theorem mem_blk15 (t : Fin cfg0.N) (i : S16384x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v21_2).slice (win0_15.rect t)).set ↔ _
  rw [View.set_slice_whole, Rect.mem_set_unit]
  exact Iff.rfl

/-- Every index of the array is in some point's block: row `p` is in block `p / 256`. -/
theorem cover15 (i : S16384x1024.Idx) : ∃ t : Fin cfg0.N, (cfg0.win 15).flush t = true ∧ i ∈ ((cfg0.win 15).blk t).view.set := by
  have hi0 : (i 0).val < 16384 := (i 0).isLt
  have hi1 : (i 1).val < 1024 := (i 1).isLt
  obtain ⟨t, ht⟩ : ∃ t : Fin cfg0.N, t.val = (i 0).val / 256 := ⟨Fin.cast N_0.symm ⟨(i 0).val / 256, by omega⟩, rfl⟩
  obtain ⟨e0, e1⟩ := idx15 t
  refine ⟨t, flush0_15 t, ?_⟩
  rw [mem_blk15]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 1024 ≤ (i 1).val ∧ (i 1).val < win0_15.index t (1 : Fin 2) * 1024 + 1024; omega

/-- So the array ends holding the whole result, given what the body leaves at each point. -/
theorem final15 (c : Dev nD) (A : Args)
    (hafter : ∀ (t : Fin cfg0.N) (r : Fin 256) (q : Fin 1024), ((dats m 0 c).after 15 t : Vec Ideal S256x1024 .f32) (ix2 r q) = cNew A (row (pt t) r) q) :
    (dats m 0 c).arrAt 15 cfg0.N = Gc A :=
  (dats m 0 c).arrAt_eq_of_cover 15 (Gc A) (fun t _ => flushed15_eq m c A hafter t) cover15

/-! ## The run, read -/

/-- The kernel's program runs, and ends with the three result arrays at the step's results of `A c` — whenever the
    body leaves those results' blocks at every point — and the argument arrays as launched. -/
theorem ker_run (A : Dev nD → Args)
    (h13 : ∀ (c : Dev nD) (t : Fin cfg0.N) (r : Fin 256) (q : Fin 1), ((dats m 0 c).after 13 t : Vec Ideal S256x1 .f32) (ix2 r q) = outNew (A c) (row (pt t) r) q)
    (h14 : ∀ (c : Dev nD) (t : Fin cfg0.N) (r : Fin 256) (q : Fin 1024), ((dats m 0 c).after 14 t : Vec Ideal S256x1024 .f32) (ix2 r q) = hNew (A c) (row (pt t) r) q)
    (h15 : ∀ (c : Dev nD) (t : Fin cfg0.N) (r : Fin 256) (q : Fin 1024), ((dats m 0 c).after 15 t : Vec Ideal S256x1024 .f32) (ix2 r q) = cNew (A c) (row (pt t) r) q) :
    θ_run (defs (F := Ideal)) (onTc (τ := τ) (main (F := Ideal))) ⟨m, fun _ => 0, ρ⟩ (fun r => ∀ c : Dev nD,
      r.2.mem ((c.tc : Thread nD τ).loc main_v21_0) = Gout (A c)
      ∧ r.2.mem ((c.tc : Thread nD τ).loc main_v21_1) = Gh (A c)
      ∧ r.2.mem ((c.tc : Thread nD τ).loc main_v21_2) = Gc (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 13).trans (final13 m c (A c) (h13 c)),
      ((h c).1 14).trans (final14 m c (A c) (h14 c)),
      ((h c).1 15).trans (final15 m c (A c) (h15 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩)
    (run_main m ρ)

end Cert.KerSide

end
-- ==== Proof.Assemble.lean ====
/-
  The kernel's program at the ideal values: at every point of the grid the body leaves, in the three output
  buffers, the step's read-out, new hidden state and new cell state of that block's rows — because the thirteen input
  blocks are the blocks of the step's arrays (the host operations' results read entry by entry), the low halves of
  every split operand vanish on real entries, and the body's arithmetic is then the step's.
-/
import proofs.«176781_j17205638987779_2_alg».proof.Proof.Payload
import proofs.«176781_j17205638987779_2_alg».proof.Proof.HostSide
import proofs.«176781_j17205638987779_2_alg».proof.Proof.BlockRead
import proofs.«176781_j17205638987779_2_alg».proof.Proof.KerFinal

noncomputable section

namespace Cert.KerSide

open Cert.KernelIdeal Cert.KernelIdeal.Gen Cert.KernelIdeal.Hand Idealize.ShloMosaic Idealize.ShloMosaic.TcCoe
  Idealize.ShloMosaic.ValueIdx Idealize.SL.Sem Cert.Lstm

/-- The two-axis zero offsets are the zero function. -/
theorem hz : (![0, 0] : Fin 2 → Nat) = fun _ => 0 := funext fun a => by fin_cases a <;> rfl

variable (m : (ℓ : Loc nD τ sig) → Buf (Elt Ideal) ℓ)
  (hpre : Cert.Pre_KernelIdeal (hPre_finite_inputs := Cert.Pre_finite_inputs.Gen.facts) m) (c : Dev nD) (t : Fin cfg0.N)
include hpre

/-- The thirteen input blocks at point `t` are the blocks of the step's arrays over the rows of block `t`. -/
theorem loaded : Cert.Lstm.Body.Loaded (kerArgs m c) (row (pt t))
    (iblk m c 0 t : Vec Ideal S256x512 .f32) (iblk m c 1 t : Vec Ideal S256x1024 .f32) (iblk m c 2 t : Vec Ideal S256x1024 .f32)
    (iblk m c 3 t : Vec Ideal S512x4096 .bf16) (iblk m c 4 t : Vec Ideal S512x4096 .bf16)
    (iblk m c 5 t : Vec Ideal S1024x4096 .bf16) (iblk m c 6 t : Vec Ideal S1024x4096 .bf16) (iblk m c 7 t : Vec Ideal S1x4096 .f32)
    (iblk m c 8 t : Vec Ideal S1024x1024 .bf16) (iblk m c 9 t : Vec Ideal S1024x1024 .bf16)
    (iblk m c 10 t : Vec Ideal S1024x1 .bf16) (iblk m c 11 t : Vec Ideal S1024x1 .bf16) (iblk m c 12 t : Vec Ideal S1x1 .f32) where
  hx r k := (blk0 m c t r k).trans (host_x m c _)
  hh r k := (blk1 m c t r k).trans (host_h m c _)
  hc r k := (blk2 m c t r k).trans (host_c m c _)
  hxr := args_x_real m c hpre
  hhr := args_h_real m c hpre
  hcr := args_c_real m c hpre
  hW k j := (blk3 m c t k j).trans (host_W m c k j)
  hWlo k j := (blk4 m c t k j).trans (host_Wlo m c hpre k j)
  hU k j := (blk5 m c t k j).trans (host_U m c k j)
  hUlo k j := (blk6 m c t k j).trans (host_Ulo m c hpre k j)
  hb j := (blk7 m c t 0 j).trans (host_b m c j)
  hV k q := (blk8 m c t k q).trans (host_V m c k q)
  hVlo k q := (blk9 m c t k q).trans (host_Vlo m c hpre k q)
  hO k q := (blk10 m c t k q).trans (host_O m c k q)
  hOlo k q := (blk11 m c t k q).trans (host_Olo m c hpre k q)
  hbo := (blk12 m c t 0 0).trans (host_bo m c)

/-- What point `t` leaves in the cell-state buffer. -/
theorem after15_at (r : Fin 256) (q : Fin 1024) :
    ((dats m 0 c).after 15 t : Vec Ideal S256x1024 .f32) (ix2 r q) = cNew (kerArgs m c) (row (pt t) r) q := by
  rw [after0_15]
  unfold out0_15
  rw [View.canon_unit_zero hz]
  simp only [View.ld_unit_zero (S := S256x512) hz, View.ld_unit_zero (S := S256x1024) hz, View.ld_unit_zero (S := S512x4096) hz,
    View.ld_unit_zero (S := S1024x4096) hz, View.ld_unit_zero (S := S1x4096) hz]
  exact Cert.Lstm.Body.pay6_apply (loaded m hpre c t) r q

/-- What point `t` leaves in the hidden-state buffer. -/
theorem after14_at (r : Fin 256) (q : Fin 1024) :
    ((dats m 0 c).after 14 t : Vec Ideal S256x1024 .f32) (ix2 r q) = hNew (kerArgs m c) (row (pt t) r) q := by
  rw [after0_14]
  unfold out0_14
  rw [View.canon_unit_zero hz]
  simp only [View.ld_unit_zero (S := S256x512) hz, View.ld_unit_zero (S := S256x1024) hz, View.ld_unit_zero (S := S512x4096) hz,
    View.ld_unit_zero (S := S1024x4096) hz, View.ld_unit_zero (S := S1x4096) hz, View.ld_unit_zero (S := S1024x1024) hz]
  exact Cert.Lstm.Body.pay7_apply (loaded m hpre c t) r q

/-- What point `t` leaves in the read-out buffer. -/
theorem after13_at (r : Fin 256) (q : Fin 1) :
    ((dats m 0 c).after 13 t : Vec Ideal S256x1 .f32) (ix2 r q) = outNew (kerArgs m c) (row (pt t) r) q := by
  rw [after0_13]
  unfold out0_13
  rw [View.canon_unit_zero hz]
  simp only [View.ld_unit_zero (S := S256x512) hz, View.ld_unit_zero (S := S256x1024) hz, View.ld_unit_zero (S := S512x4096) hz,
    View.ld_unit_zero (S := S1024x4096) hz, View.ld_unit_zero (S := S1x4096) hz, View.ld_unit_zero (S := S1024x1024) hz,
    View.ld_unit_zero (S := S1024x1) hz, View.ld_unit_zero (S := S1x1) hz]
  exact Cert.Lstm.Body.pay8_apply (loaded m hpre c t) r q

end Cert.KerSide

end
-- ==== Proof.lean ====
/-
  One LSTM step, computed by a Pallas kernel with every matrix product taken in three passes over two-term splits of
  its operands, against the plain jnp step.

  The claim has five parts.
  * The three programs run to the end without a fault and leave their eighteen argument arrays unchanged: for the
    two kernel programs by the run of the one pipelined region after the host operations (each grid point's body
    loads its thirteen input blocks whole and stores its three output blocks whole); for the reference by its run
    as a list of host operations.
  * The idealized kernel is the kernel's sanctioned idealization: its four removed round trips through bf16.
  * At the ideal values the two programs agree. A change of float format is the identity there, so each split
    x = hi + lo has hi = x and lo = x - x, which is 0 because every input entry is a real number under the
    precondition (and the new hidden state, a logistic value times a hyperbolic tangent, is always real). Hence
    hi·hi + hi·lo + lo·hi is the plain product, the fused pre-activations are Σ x·W + Σ h·U + b on both sides, and
    the gates, the new cell state, the new hidden state and the read-out are the same functions of them, entry by
    entry; the kernel's blocks of 256 rows tile the 16384 rows.
-/
import proofs.«176781_j17205638987779_2_alg».proof.Defs
import proofs.«176781_j17205638987779_2_alg».proof.Proof.Gen.Kernel
import proofs.«176781_j17205638987779_2_alg».proof.Proof.Gen.KernelIdeal
import proofs.«176781_j17205638987779_2_alg».proof.Proof.Gen.ReferenceIdeal
import proofs.«176781_j17205638987779_2_alg».proof.Proof.Gen.Pre_finite_inputs
import proofs.«176781_j17205638987779_2_alg».proof.Proof.KFrame
import proofs.«176781_j17205638987779_2_alg».proof.Proof.KIFrame
import proofs.«176781_j17205638987779_2_alg».proof.Proof.RefSide
import proofs.«176781_j17205638987779_2_alg».proof.Proof.Assemble
import Idealize.ShloMosaic.Adequacy
import Idealize.ShloMosaic.Init

noncomputable section

namespace Cert.Proof

open Idealize.ShloMosaic Idealize.SL.Sem

/-- The four round trips through bf16 that the idealization removed, each by the rule's own lemma. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- From memories that agree on the arguments the two programs see the same step's arrays. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.RefSide.refArgs m' c = Cert.KerSide.kerArgs m c := by
  obtain ⟨h0, h1, h2, h3, h4, h5, h6, h7, h8, h9, h10, h11, h12, h13, h14, h15, h16, h17⟩ := h
  unfold Cert.RefSide.refArgs Cert.KerSide.kerArgs
  rw [h0, h1, h2, h3, h4, h5, h6, h7, h8, h9, h10, h11, h12, h13, h14, h15, h16, h17]

/-- Both programs end with the step's read-out, new hidden state and new cell state of the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.Lstm.Gout (Cert.KerSide.kerArgs m c), fun c => Cert.Lstm.Gh (Cert.KerSide.kerArgs m c),
    fun c => Cert.Lstm.Gc (Cert.KerSide.kerArgs m c),
    Cert.KerSide.ker_run m g (Cert.KerSide.kerArgs m) (fun c t r q => Cert.KerSide.after13_at m hpre c t r q)
      (fun c t r q => Cert.KerSide.after14_at m hpre c t r q) (fun c t r q => Cert.KerSide.after15_at m hpre c t r q), ?_⟩
  refine (θ_run Cert.ReferenceIdeal.defs _ _).mono (fun r h c => ?_) (Cert.RefSide.ref_run m' g')
  beta_reduce
  rw [← args_agree m m' c (hagree c)]
  exact h c

theorem claim : Cert.Claim := ⟨Cert.Kernel.Gen.facts, Cert.KernelIdeal.Gen.facts, Cert.ReferenceIdeal.Gen.facts, Cert.Pre_finite_inputs.Gen.facts,
  fun m g _ => Cert.Kernel.Hand.frame m g, fun m g _ => Cert.KernelIdeal.Hand.frame m g, Cert.RefSide.frame_ri, preserves, algebraic⟩

end Cert.Proof

end
